-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S1x1024 : Shape := ⟨2, ![1, 1024]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8192x256 .f32) (main_arg1 : FVec F S1x1024 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  main_v8
-- ==== Kernel.lean ====
abbrev S8192x256 : Shape := ⟨2, ![8192, 256]⟩
abbrev S1x1024 : Shape := ⟨2, ![1, 1024]⟩
abbrev S1024 : Shape := ⟨1, ![1024]⟩
abbrev S256x4 : Shape := ⟨2, ![256, 4]⟩
abbrev S256x1 : Shape := ⟨2, ![256, 1]⟩
abbrev S256 : Shape := ⟨1, ![256]⟩
abbrev S_ : Shape := ⟨0, ![]⟩
abbrev S1x256 : Shape := ⟨2, ![1, 256]⟩
abbrev S4x256 : Shape := ⟨2, ![4, 256]⟩
abbrev S12x256 : Shape := ⟨2, ![12, 256]⟩
abbrev S2048x256 : Shape := ⟨2, ![2048, 256]⟩

abbrev nBuf : Space → Nat
  | .hbm => 191
  | .vmem => 6
  | .smem => 0
  | _ => 0

abbrev hbmTy0_0 (i : Nat) : BufTy := match i % 128 with
  | 0 => ⟨S8192x256, .f32⟩
  | 1 => ⟨S1x1024, .f32⟩
  | 2 => ⟨S1024, .f32⟩
  | 3 => ⟨S256x4, .f32⟩
  | 4 => ⟨S256x1, .f32⟩
  | 5 => ⟨S256, .f32⟩
  | 6 => ⟨S256x1, .f32⟩
  | 7 => ⟨S256, .f32⟩
  | 8 => ⟨S256x1, .f32⟩
  | 9 => ⟨S256, .f32⟩
  | 10 => ⟨S256x1, .f32⟩
  | 11 => ⟨S256, .f32⟩
  | 12 => ⟨S_, .f32⟩
  | 13 => ⟨S256, .f32⟩
  | 14 => ⟨S256, .i1⟩
  | 15 => ⟨S_, .f32⟩
  | 16 => ⟨S256, .f32⟩
  | 17 => ⟨S_, .f32⟩
  | 18 => ⟨S256, .f32⟩
  | 19 => ⟨S256, .f32⟩
  | 20 => ⟨S_, .f32⟩
  | 21 => ⟨S256, .f32⟩
  | 22 => ⟨S256, .f32⟩
  | 23 => ⟨S_, .f32⟩
  | 24 => ⟨S_, .f32⟩
  | 25 => ⟨S256, .f32⟩
  | 26 => ⟨S256, .f32⟩
  | 27 => ⟨S_, .f32⟩
  | 28 => ⟨S256, .f32⟩
  | 29 => ⟨S256, .i1⟩
  | 30 => ⟨S256, .i1⟩
  | 31 => ⟨S_, .f32⟩
  | 32 => ⟨S256, .f32⟩
  | 33 => ⟨S256, .f32⟩
  | 34 => ⟨S_, .f32⟩
  | 35 => ⟨S256, .f32⟩
  | 36 => ⟨S256, .f32⟩
  | 37 => ⟨S_, .f32⟩
  | 38 => ⟨S256, .f32⟩
  | 39 => ⟨S256, .f32⟩
  | 40 => ⟨S_, .f32⟩
  | 41 => ⟨S256, .f32⟩
  | 42 => ⟨S256, .f32⟩
  | 43 => ⟨S256, .f32⟩
  | 44 => ⟨S256, .f32⟩
  | 45 => ⟨S_, .f32⟩
  | 46 => ⟨S_, .f32⟩
  | 47 => ⟨S256, .f32⟩
  | 48 => ⟨S256, .f32⟩
  | 49 => ⟨S_, .f32⟩
  | 50 => ⟨S256, .f32⟩
  | 51 => ⟨S_, .f32⟩
  | 52 => ⟨S256, .f32⟩
  | 53 => ⟨S256, .f32⟩
  | 54 => ⟨S_, .f32⟩
  | 55 => ⟨S256, .f32⟩
  | 56 => ⟨S256, .f32⟩
  | 57 => ⟨S_, .f32⟩
  | 58 => ⟨S256, .f32⟩
  | 59 => ⟨S256, .f32⟩
  | 60 => ⟨S_, .f32⟩
  | 61 => ⟨S256, .f32⟩
  | 62 => ⟨S256, .f32⟩
  | 63 => ⟨S_, .f32⟩
  | 64 => ⟨S256, .f32⟩
  | 65 => ⟨S256, .f32⟩
  | 66 => ⟨S_, .f32⟩
  | 67 => ⟨S256, .f32⟩
  | 68 => ⟨S256, .f32⟩
  | 69 => ⟨S256, .f32⟩
  | 70 => ⟨S_, .f32⟩
  | 71 => ⟨S_, .f32⟩
  | 72 => ⟨S256, .f32⟩
  | 73 => ⟨S256, .f32⟩
  | 74 => ⟨S_, .f32⟩
  | 75 => ⟨S256, .f32⟩
  | 76 => ⟨S256, .f32⟩
  | 77 => ⟨S_, .f32⟩
  | 78 => ⟨S_, .f32⟩
  | 79 => ⟨S256, .f32⟩
  | 80 => ⟨S256, .f32⟩
  | 81 => ⟨S1x256, .f32⟩
  | 82 => ⟨S1x256, .f32⟩
  | 83 => ⟨S1x256, .f32⟩
  | 84 => ⟨S1x256, .f32⟩
  | 85 => ⟨S4x256, .f32⟩
  | 86 => ⟨S1x256, .f32⟩
  | 87 => ⟨S1x256, .f32⟩
  | 88 => ⟨S1x256, .f32⟩
  | 89 => ⟨S1x256, .f32⟩
  | 90 => ⟨S4x256, .f32⟩
  | 91 => ⟨S1x256, .f32⟩
  | 92 => ⟨S1x256, .f32⟩
  | 93 => ⟨S1x256, .f32⟩
  | 94 => ⟨S1x256, .f32⟩
  | 95 => ⟨S4x256, .f32⟩
  | 96 => ⟨S1x256, .f32⟩
  | 97 => ⟨S1x256, .f32⟩
  | 98 => ⟨S1x256, .f32⟩
  | 99 => ⟨S1x256, .f32⟩
  | 100 => ⟨S4x256, .f32⟩
  | 101 => ⟨S_, .f32⟩
  | 102 => ⟨S4x256, .f32⟩
  | 103 => ⟨S4x256, .f32⟩
  | 104 => ⟨S4x256, .f32⟩
  | 105 => ⟨S_, .f32⟩
  | 106 => ⟨S4x256, .f32⟩
  | 107 => ⟨S4x256, .f32⟩
  | 108 => ⟨S1x256, .f32⟩
  | 109 => ⟨S1x256, .f32⟩
  | 110 => ⟨S1x256, .f32⟩
  | 111 => ⟨S1x256, .f32⟩
  | 112 => ⟨S4x256, .f32⟩
  | 113 => ⟨S1x256, .f32⟩
  | 114 => ⟨S1x256, .f32⟩
  | 115 => ⟨S1x256, .f32⟩
  | 116 => ⟨S1x256, .f32⟩
  | 117 => ⟨S4x256, .f32⟩
  | 118 => ⟨S_, .f32⟩
  | 119 => ⟨S4x256, .f32⟩
  | 120 => ⟨S4x256, .f32⟩
  | 121 => ⟨S4x256, .f32⟩
  | 122 => ⟨S_, .f32⟩
  | 123 => ⟨S4x256, .f32⟩
  | 124 => ⟨S4x256, .f32⟩
  | 125 => ⟨S12x256, .f32⟩
  | 126 => ⟨S12x256, .f32⟩
  | 127 => ⟨S_, .f32⟩
  | _ => ⟨S8192x256, .f32⟩

abbrev hbmTy0_1 (i : Nat) : BufTy := match i % 128 with
  | 0 => ⟨S12x256, .f32⟩
  | 1 => ⟨S12x256, .f32⟩
  | 2 => ⟨S_, .f32⟩
  | 3 => ⟨S12x256, .f32⟩
  | 4 => ⟨S12x256, .f32⟩
  | 5 => ⟨S12x256, .f32⟩
  | 6 => ⟨S_, .f32⟩
  | 7 => ⟨S256, .f32⟩
  | 8 => ⟨S256, .f32⟩
  | 9 => ⟨S1x256, .f32⟩
  | 10 => ⟨S12x256, .f32⟩
  | 11 => ⟨S12x256, .i1⟩
  | 12 => ⟨S_, .f32⟩
  | 13 => ⟨S256, .f32⟩
  | 14 => ⟨S256, .f32⟩
  | 15 => ⟨S1x256, .f32⟩
  | 16 => ⟨S12x256, .f32⟩
  | 17 => ⟨S12x256, .i1⟩
  | 18 => ⟨S12x256, .i1⟩
  | 19 => ⟨S_, .f32⟩
  | 20 => ⟨S256, .f32⟩
  | 21 => ⟨S256, .f32⟩
  | 22 => ⟨S1x256, .f32⟩
  | 23 => ⟨S12x256, .f32⟩
  | 24 => ⟨S12x256, .i1⟩
  | 25 => ⟨S12x256, .i1⟩
  | 26 => ⟨S_, .f32⟩
  | 27 => ⟨S256, .f32⟩
  | 28 => ⟨S256, .f32⟩
  | 29 => ⟨S1x256, .f32⟩
  | 30 => ⟨S12x256, .f32⟩
  | 31 => ⟨S12x256, .i1⟩
  | 32 => ⟨S12x256, .i1⟩
  | 33 => ⟨S_, .f32⟩
  | 34 => ⟨S256, .f32⟩
  | 35 => ⟨S256, .f32⟩
  | 36 => ⟨S1x256, .f32⟩
  | 37 => ⟨S12x256, .f32⟩
  | 38 => ⟨S12x256, .i1⟩
  | 39 => ⟨S12x256, .i1⟩
  | 40 => ⟨S_, .f32⟩
  | 41 => ⟨S256, .f32⟩
  | 42 => ⟨S256, .f32⟩
  | 43 => ⟨S1x256, .f32⟩
  | 44 => ⟨S12x256, .f32⟩
  | 45 => ⟨S12x256, .i1⟩
  | 46 => ⟨S12x256, .i1⟩
  | 47 => ⟨S12x256, .f32⟩
  | 48 => ⟨S_, .f32⟩
  | 49 => ⟨S_, .f32⟩
  | 50 => ⟨S12x256, .f32⟩
  | 51 => ⟨S12x256, .f32⟩
  | 52 => ⟨S_, .f32⟩
  | 53 => ⟨S256, .f32⟩
  | 54 => ⟨S_, .f32⟩
  | 55 => ⟨S_, .f32⟩
  | 56 => ⟨S12x256, .f32⟩
  | 57 => ⟨S12x256, .f32⟩
  | 58 => ⟨S_, .f32⟩
  | 59 => ⟨S256, .f32⟩
  | 60 => ⟨S1x256, .f32⟩
  | 61 => ⟨S1x256, .f32⟩
  | 62 => ⟨S8192x256, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | .local _ .vmem, ⟨0, _⟩ => ⟨S2048x256, .f32⟩
  | .local _ .vmem, ⟨1, _⟩ => ⟨S2048x256, .f32⟩
  | .local _ .vmem, ⟨2, _⟩ => ⟨S1x256, .f32⟩
  | .local _ .vmem, ⟨3, _⟩ => ⟨S1x256, .f32⟩
  | .local _ .vmem, ⟨4, _⟩ => ⟨S2048x256, .f32⟩
  | .local _ .vmem, ⟨5, _⟩ => ⟨S2048x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_call1_v0 : Ref sig .tc := ⟨.hbm, 46, rfl⟩
abbrev main_call1_v1 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_cst_11 : Ref sig .tc := ⟨.hbm, 51, rfl⟩
abbrev main_v33 : Ref sig .tc := ⟨.hbm, 52, rfl⟩
abbrev main_v34 : Ref sig .tc := ⟨.hbm, 53, rfl⟩
abbrev main_cst_12 : Ref sig .tc := ⟨.hbm, 54, rfl⟩
abbrev main_v35 : Ref sig .tc := ⟨.hbm, 55, rfl⟩
abbrev main_v36 : Ref sig .tc := ⟨.hbm, 56, rfl⟩
abbrev main_cst_13 : Ref sig .tc := ⟨.hbm, 57, rfl⟩
abbrev main_v37 : Ref sig .tc := ⟨.hbm, 58, rfl⟩
abbrev main_v38 : Ref sig .tc := ⟨.hbm, 59, rfl⟩
abbrev main_cst_14 : Ref sig .tc := ⟨.hbm, 60, rfl⟩
abbrev main_v39 : Ref sig .tc := ⟨.hbm, 61, rfl⟩
abbrev main_v40 : Ref sig .tc := ⟨.hbm, 62, rfl⟩
abbrev main_cst_15 : Ref sig .tc := ⟨.hbm, 63, rfl⟩
abbrev main_v41 : Ref sig .tc := ⟨.hbm, 64, rfl⟩
abbrev main_v42 : Ref sig .tc := ⟨.hbm, 65, rfl⟩
abbrev main_cst_16 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_17 : Ref sig .tc := ⟨.hbm, 70, rfl⟩
abbrev main_call2_v0 : Ref sig .tc := ⟨.hbm, 71, rfl⟩
abbrev main_call2_v1 : Ref sig .tc := ⟨.hbm, 72, rfl⟩
abbrev main_v46 : Ref sig .tc := ⟨.hbm, 73, rfl⟩
abbrev main_cst_18 : Ref sig .tc := ⟨.hbm, 74, rfl⟩
abbrev main_v47 : Ref sig .tc := ⟨.hbm, 75, rfl⟩
abbrev main_v48 : Ref sig .tc := ⟨.hbm, 76, rfl⟩
abbrev main_cst_19 : Ref sig .tc := ⟨.hbm, 77, rfl⟩
abbrev main_call3_v0 : Ref sig .tc := ⟨.hbm, 78, rfl⟩
abbrev main_call3_v1 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_20 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_21 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_22 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_23 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_24 : Ref sig .tc := ⟨.hbm, 127, rfl⟩
abbrev main_v92 : Ref sig .tc := ⟨.hbm, 128, rfl⟩
abbrev main_v93 : Ref sig .tc := ⟨.hbm, 129, rfl⟩
abbrev main_cst_25 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_26 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_27 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_28 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_29 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_30 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_31 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_cst_32 : Ref sig .tc := ⟨.hbm, 176, rfl⟩
abbrev main_call4_v0 : Ref sig .tc := ⟨.hbm, 177, rfl⟩
abbrev main_call4_v1 : Ref sig .tc := ⟨.hbm, 178, rfl⟩
abbrev main_v133 : Ref sig .tc := ⟨.hbm, 179, rfl⟩
abbrev main_cst_33 : Ref sig .tc := ⟨.hbm, 180, rfl⟩
abbrev main_v134 : Ref sig .tc := ⟨.hbm, 181, rfl⟩
abbrev main_cst_34 : Ref sig .tc := ⟨.hbm, 182, rfl⟩
abbrev main_call5_v0 : Ref sig .tc := ⟨.hbm, 183, rfl⟩
abbrev main_call5_v1 : Ref sig .tc := ⟨.hbm, 184, rfl⟩
abbrev main_v135 : Ref sig .tc := ⟨.hbm, 185, rfl⟩
abbrev main_cst_35 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x1024_S1024 : S1x1024.ShapeCasts S1024
  shapeCasts_S1024_S256x4 : S1024.ShapeCasts S256x4
  slices_S256x4_S256x1_0_0 : S256x4.Slices ![0, 0] S256x1
  shapeCasts_S256x1_S256 : S256x1.ShapeCasts S256
  slices_S256x4_S256x1_0_1 : S256x4.Slices ![0, 1] S256x1
  slices_S256x4_S256x1_0_2 : S256x4.Slices ![0, 2] S256x1
  slices_S256x4_S256x1_0_3 : S256x4.Slices ![0, 3] S256x1
  bcast_S_S256 : S_.BroadcastsInDim S256 (![] : Fin 0 → Fin S256.rank)
  bcast_S256_S1x256_1 : S256.BroadcastsInDim S1x256 (![1] : Fin 1 → Fin S1x256.rank)
  concatenates_S1x256_S1x256_S1x256_S1x256_S4x256_d0 : Shape.Concatenates [S1x256, S1x256, S1x256, S1x256] S4x256 0
  bcast_S_S4x256 : S_.BroadcastsInDim S4x256 (![] : Fin 0 → Fin S4x256.rank)
  concatenates_S4x256_S4x256_S4x256_S12x256_d0 : Shape.Concatenates [S4x256, S4x256, S4x256] S12x256 0
  bcast_S_S12x256 : S_.BroadcastsInDim S12x256 (![] : Fin 0 → Fin S12x256.rank)
  bcast_S1x256_S12x256_0_1 : S1x256.BroadcastsInDim S12x256 (![0, 1] : Fin 2 → Fin S12x256.rank)
  reducesTo_S12x256_S256_d0 : S12x256.ReducesTo [0] S256
  h_S_ : 0 < S_.numel
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x256.size a
  hwx0_3 : ∀ i : grid0.Coords, EltTy.bits .f32 = 32 ∨ (Rect.block (s := S8192x256) S2048x256.size (cc0_transform_3 i) (hinb0_3 i)).WholeWords (EltTy.packing .f32)

variable [Facts₀]

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v137) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v138) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v139) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x256 : Shape := ⟨2, ![8192, 256]⟩
abbrev S1x1024 : Shape := ⟨2, ![1, 1024]⟩
abbrev S1024 : Shape := ⟨1, ![1024]⟩
abbrev S256x4 : Shape := ⟨2, ![256, 4]⟩
abbrev S256x1 : Shape := ⟨2, ![256, 1]⟩
abbrev S256 : Shape := ⟨1, ![256]⟩
abbrev S_ : Shape := ⟨0, ![]⟩
abbrev S1x256 : Shape := ⟨2, ![1, 256]⟩
abbrev S4x256 : Shape := ⟨2, ![4, 256]⟩
abbrev S12x256 : Shape := ⟨2, ![12, 256]⟩

abbrev nBuf : Space → Nat
  | .hbm => 194
  | .vmem => 0
  | .smem => 0
  | _ => 0

abbrev hbmTy0_0 (i : Nat) : BufTy := match i % 128 with
  | 0 => ⟨S8192x256, .f32⟩
  | 1 => ⟨S1x1024, .f32⟩
  | 2 => ⟨S1024, .f32⟩
  | 3 => ⟨S256x4, .f32⟩
  | 4 => ⟨S256x1, .f32⟩
  | 5 => ⟨S256, .f32⟩
  | 6 => ⟨S256x1, .f32⟩
  | 7 => ⟨S256, .f32⟩
  | 8 => ⟨S256x1, .f32⟩
  | 9 => ⟨S256, .f32⟩
  | 10 => ⟨S256x1, .f32⟩
  | 11 => ⟨S256, .f32⟩
  | 12 => ⟨S_, .f32⟩
  | 13 => ⟨S256, .f32⟩
  | 14 => ⟨S256, .i1⟩
  | 15 => ⟨S_, .f32⟩
  | 16 => ⟨S256, .f32⟩
  | 17 => ⟨S_, .f32⟩
  | 18 => ⟨S256, .f32⟩
  | 19 => ⟨S256, .f32⟩
  | 20 => ⟨S_, .f32⟩
  | 21 => ⟨S256, .f32⟩
  | 22 => ⟨S256, .f32⟩
  | 23 => ⟨S_, .f32⟩
  | 24 => ⟨S_, .f32⟩
  | 25 => ⟨S256, .f32⟩
  | 26 => ⟨S256, .f32⟩
  | 27 => ⟨S_, .f32⟩
  | 28 => ⟨S256, .f32⟩
  | 29 => ⟨S256, .i1⟩
  | 30 => ⟨S256, .i1⟩
  | 31 => ⟨S_, .f32⟩
  | 32 => ⟨S256, .f32⟩
  | 33 => ⟨S256, .f32⟩
  | 34 => ⟨S_, .f32⟩
  | 35 => ⟨S256, .f32⟩
  | 36 => ⟨S256, .f32⟩
  | 37 => ⟨S_, .f32⟩
  | 38 => ⟨S256, .f32⟩
  | 39 => ⟨S256, .f32⟩
  | 40 => ⟨S_, .f32⟩
  | 41 => ⟨S256, .f32⟩
  | 42 => ⟨S256, .f32⟩
  | 43 => ⟨S256, .f32⟩
  | 44 => ⟨S256, .f32⟩
  | 45 => ⟨S_, .f32⟩
  | 46 => ⟨S_, .f32⟩
  | 47 => ⟨S256, .f32⟩
  | 48 => ⟨S256, .f32⟩
  | 49 => ⟨S_, .f32⟩
  | 50 => ⟨S256, .f32⟩
  | 51 => ⟨S_, .f32⟩
  | 52 => ⟨S256, .f32⟩
  | 53 => ⟨S256, .f32⟩
  | 54 => ⟨S_, .f32⟩
  | 55 => ⟨S256, .f32⟩
  | 56 => ⟨S256, .f32⟩
  | 57 => ⟨S_, .f32⟩
  | 58 => ⟨S256, .f32⟩
  | 59 => ⟨S256, .f32⟩
  | 60 => ⟨S_, .f32⟩
  | 61 => ⟨S256, .f32⟩
  | 62 => ⟨S256, .f32⟩
  | 63 => ⟨S_, .f32⟩
  | 64 => ⟨S256, .f32⟩
  | 65 => ⟨S256, .f32⟩
  | 66 => ⟨S_, .f32⟩
  | 67 => ⟨S256, .f32⟩
  | 68 => ⟨S256, .f32⟩
  | 69 => ⟨S256, .f32⟩
  | 70 => ⟨S_, .f32⟩
  | 71 => ⟨S_, .f32⟩
  | 72 => ⟨S256, .f32⟩
  | 73 => ⟨S256, .f32⟩
  | 74 => ⟨S_, .f32⟩
  | 75 => ⟨S256, .f32⟩
  | 76 => ⟨S256, .f32⟩
  | 77 => ⟨S_, .f32⟩
  | 78 => ⟨S_, .f32⟩
  | 79 => ⟨S256, .f32⟩
  | 80 => ⟨S256, .f32⟩
  | 81 => ⟨S1x256, .f32⟩
  | 82 => ⟨S1x256, .f32⟩
  | 83 => ⟨S1x256, .f32⟩
  | 84 => ⟨S1x256, .f32⟩
  | 85 => ⟨S4x256, .f32⟩
  | 86 => ⟨S1x256, .f32⟩
  | 87 => ⟨S1x256, .f32⟩
  | 88 => ⟨S1x256, .f32⟩
  | 89 => ⟨S1x256, .f32⟩
  | 90 => ⟨S4x256, .f32⟩
  | 91 => ⟨S1x256, .f32⟩
  | 92 => ⟨S1x256, .f32⟩
  | 93 => ⟨S1x256, .f32⟩
  | 94 => ⟨S1x256, .f32⟩
  | 95 => ⟨S4x256, .f32⟩
  | 96 => ⟨S1x256, .f32⟩
  | 97 => ⟨S1x256, .f32⟩
  | 98 => ⟨S1x256, .f32⟩
  | 99 => ⟨S1x256, .f32⟩
  | 100 => ⟨S4x256, .f32⟩
  | 101 => ⟨S_, .f32⟩
  | 102 => ⟨S4x256, .f32⟩
  | 103 => ⟨S4x256, .f32⟩
  | 104 => ⟨S4x256, .f32⟩
  | 105 => ⟨S_, .f32⟩
  | 106 => ⟨S4x256, .f32⟩
  | 107 => ⟨S4x256, .f32⟩
  | 108 => ⟨S1x256, .f32⟩
  | 109 => ⟨S1x256, .f32⟩
  | 110 => ⟨S1x256, .f32⟩
  | 111 => ⟨S1x256, .f32⟩
  | 112 => ⟨S4x256, .f32⟩
  | 113 => ⟨S1x256, .f32⟩
  | 114 => ⟨S1x256, .f32⟩
  | 115 => ⟨S1x256, .f32⟩
  | 116 => ⟨S1x256, .f32⟩
  | 117 => ⟨S4x256, .f32⟩
  | 118 => ⟨S_, .f32⟩
  | 119 => ⟨S4x256, .f32⟩
  | 120 => ⟨S4x256, .f32⟩
  | 121 => ⟨S4x256, .f32⟩
  | 122 => ⟨S_, .f32⟩
  | 123 => ⟨S4x256, .f32⟩
  | 124 => ⟨S4x256, .f32⟩
  | 125 => ⟨S12x256, .f32⟩
  | 126 => ⟨S12x256, .f32⟩
  | 127 => ⟨S_, .f32⟩
  | _ => ⟨S8192x256, .f32⟩

abbrev hbmTy0_1 (i : Nat) : BufTy := match i % 128 with
  | 0 => ⟨S12x256, .f32⟩
  | 1 => ⟨S12x256, .f32⟩
  | 2 => ⟨S_, .f32⟩
  | 3 => ⟨S12x256, .f32⟩
  | 4 => ⟨S12x256, .f32⟩
  | 5 => ⟨S12x256, .f32⟩
  | 6 => ⟨S_, .f32⟩
  | 7 => ⟨S256, .f32⟩
  | 8 => ⟨S256, .f32⟩
  | 9 => ⟨S1x256, .f32⟩
  | 10 => ⟨S12x256, .f32⟩
  | 11 => ⟨S12x256, .i1⟩
  | 12 => ⟨S_, .f32⟩
  | 13 => ⟨S256, .f32⟩
  | 14 => ⟨S256, .f32⟩
  | 15 => ⟨S1x256, .f32⟩
  | 16 => ⟨S12x256, .f32⟩
  | 17 => ⟨S12x256, .i1⟩
  | 18 => ⟨S12x256, .i1⟩
  | 19 => ⟨S_, .f32⟩
  | 20 => ⟨S256, .f32⟩
  | 21 => ⟨S256, .f32⟩
  | 22 => ⟨S1x256, .f32⟩
  | 23 => ⟨S12x256, .f32⟩
  | 24 => ⟨S12x256, .i1⟩
  | 25 => ⟨S12x256, .i1⟩
  | 26 => ⟨S_, .f32⟩
  | 27 => ⟨S256, .f32⟩
  | 28 => ⟨S256, .f32⟩
  | 29 => ⟨S1x256, .f32⟩
  | 30 => ⟨S12x256, .f32⟩
  | 31 => ⟨S12x256, .i1⟩
  | 32 => ⟨S12x256, .i1⟩
  | 33 => ⟨S_, .f32⟩
  | 34 => ⟨S256, .f32⟩
  | 35 => ⟨S256, .f32⟩
  | 36 => ⟨S1x256, .f32⟩
  | 37 => ⟨S12x256, .f32⟩
  | 38 => ⟨S12x256, .i1⟩
  | 39 => ⟨S12x256, .i1⟩
  | 40 => ⟨S_, .f32⟩
  | 41 => ⟨S256, .f32⟩
  | 42 => ⟨S256, .f32⟩
  | 43 => ⟨S1x256, .f32⟩
  | 44 => ⟨S12x256, .f32⟩
  | 45 => ⟨S12x256, .i1⟩
  | 46 => ⟨S12x256, .i1⟩
  | 47 => ⟨S12x256, .f32⟩
  | 48 => ⟨S_, .f32⟩
  | 49 => ⟨S_, .f32⟩
  | 50 => ⟨S12x256, .f32⟩
  | 51 => ⟨S12x256, .f32⟩
  | 52 => ⟨S_, .f32⟩
  | 53 => ⟨S256, .f32⟩
  | 54 => ⟨S_, .f32⟩
  | 55 => ⟨S_, .f32⟩
  | 56 => ⟨S12x256, .f32⟩
  | 57 => ⟨S12x256, .f32⟩
  | 58 => ⟨S_, .f32⟩
  | 59 => ⟨S256, .f32⟩
  | 60 => ⟨S1x256, .f32⟩
  | 61 => ⟨S1x256, .f32⟩
  | 62 => ⟨S8192x256, .f32⟩
  | 63 => ⟨S8192x256, .f32⟩
  | 64 => ⟨S8192x256, .f32⟩
  | 65 => ⟨S8192x256, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_call1_v0 : Ref sig .tc := ⟨.hbm, 46, rfl⟩
abbrev main_call1_v1 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_cst_11 : Ref sig .tc := ⟨.hbm, 51, rfl⟩
abbrev main_v33 : Ref sig .tc := ⟨.hbm, 52, rfl⟩
abbrev main_v34 : Ref sig .tc := ⟨.hbm, 53, rfl⟩
abbrev main_cst_12 : Ref sig .tc := ⟨.hbm, 54, rfl⟩
abbrev main_v35 : Ref sig .tc := ⟨.hbm, 55, rfl⟩
abbrev main_v36 : Ref sig .tc := ⟨.hbm, 56, rfl⟩
abbrev main_cst_13 : Ref sig .tc := ⟨.hbm, 57, rfl⟩
abbrev main_v37 : Ref sig .tc := ⟨.hbm, 58, rfl⟩
abbrev main_v38 : Ref sig .tc := ⟨.hbm, 59, rfl⟩
abbrev main_cst_14 : Ref sig .tc := ⟨.hbm, 60, rfl⟩
abbrev main_v39 : Ref sig .tc := ⟨.hbm, 61, rfl⟩
abbrev main_v40 : Ref sig .tc := ⟨.hbm, 62, rfl⟩
abbrev main_cst_15 : Ref sig .tc := ⟨.hbm, 63, rfl⟩
abbrev main_v41 : Ref sig .tc := ⟨.hbm, 64, rfl⟩
abbrev main_v42 : Ref sig .tc := ⟨.hbm, 65, rfl⟩
abbrev main_cst_16 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_17 : Ref sig .tc := ⟨.hbm, 70, rfl⟩
abbrev main_call2_v0 : Ref sig .tc := ⟨.hbm, 71, rfl⟩
abbrev main_call2_v1 : Ref sig .tc := ⟨.hbm, 72, rfl⟩
abbrev main_v46 : Ref sig .tc := ⟨.hbm, 73, rfl⟩
abbrev main_cst_18 : Ref sig .tc := ⟨.hbm, 74, rfl⟩
abbrev main_v47 : Ref sig .tc := ⟨.hbm, 75, rfl⟩
abbrev main_v48 : Ref sig .tc := ⟨.hbm, 76, rfl⟩
abbrev main_cst_19 : Ref sig .tc := ⟨.hbm, 77, rfl⟩
abbrev main_call3_v0 : Ref sig .tc := ⟨.hbm, 78, rfl⟩
abbrev main_call3_v1 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_20 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_21 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_22 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_23 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_24 : Ref sig .tc := ⟨.hbm, 127, rfl⟩
abbrev main_v92 : Ref sig .tc := ⟨.hbm, 128, rfl⟩
abbrev main_v93 : Ref sig .tc := ⟨.hbm, 129, rfl⟩
abbrev main_cst_25 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_26 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_27 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_28 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_29 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_30 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_31 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_cst_32 : Ref sig .tc := ⟨.hbm, 176, rfl⟩
abbrev main_call4_v0 : Ref sig .tc := ⟨.hbm, 177, rfl⟩
abbrev main_call4_v1 : Ref sig .tc := ⟨.hbm, 178, rfl⟩
abbrev main_v133 : Ref sig .tc := ⟨.hbm, 179, rfl⟩
abbrev main_cst_33 : Ref sig .tc := ⟨.hbm, 180, rfl⟩
abbrev main_v134 : Ref sig .tc := ⟨.hbm, 181, rfl⟩
abbrev main_cst_34 : Ref sig .tc := ⟨.hbm, 182, rfl⟩
abbrev main_call5_v0 : Ref sig .tc := ⟨.hbm, 183, rfl⟩
abbrev main_call5_v1 : Ref sig .tc := ⟨.hbm, 184, rfl⟩
abbrev main_v135 : Ref sig .tc := ⟨.hbm, 185, rfl⟩
abbrev main_cst_35 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_call6_v0 : Ref sig .tc := ⟨.hbm, 190, rfl⟩
abbrev main_call6_v1 : Ref sig .tc := ⟨.hbm, 191, rfl⟩
abbrev main_call6_v2 : Ref sig .tc := ⟨.hbm, 192, rfl⟩
abbrev main_v139 : Ref sig .tc := ⟨.hbm, 193, rfl⟩

abbrev nD : Nat := 1
abbrev τ : Topo := Topo.v7x

variable {F : FTy → Type} [FloatOps F]

class Facts₀ : Prop where
  shapeCasts_S1x1024_S1024 : S1x1024.ShapeCasts S1024
  shapeCasts_S1024_S256x4 : S1024.ShapeCasts S256x4
  slices_S256x4_S256x1_0_0 : S256x4.Slices ![0, 0] S256x1
  shapeCasts_S256x1_S256 : S256x1.ShapeCasts S256
  slices_S256x4_S256x1_0_1 : S256x4.Slices ![0, 1] S256x1
  slices_S256x4_S256x1_0_2 : S256x4.Slices ![0, 2] S256x1
  slices_S256x4_S256x1_0_3 : S256x4.Slices ![0, 3] S256x1
  bcast_S_S256 : S_.BroadcastsInDim S256 (![] : Fin 0 → Fin S256.rank)
  bcast_S256_S1x256_1 : S256.BroadcastsInDim S1x256 (![1] : Fin 1 → Fin S1x256.rank)
  concatenates_S1x256_S1x256_S1x256_S1x256_S4x256_d0 : Shape.Concatenates [S1x256, S1x256, S1x256, S1x256] S4x256 0
  bcast_S_S4x256 : S_.BroadcastsInDim S4x256 (![] : Fin 0 → Fin S4x256.rank)
  concatenates_S4x256_S4x256_S4x256_S12x256_d0 : Shape.Concatenates [S4x256, S4x256, S4x256] S12x256 0
  bcast_S_S12x256 : S_.BroadcastsInDim S12x256 (![] : Fin 0 → Fin S12x256.rank)
  bcast_S1x256_S12x256_0_1 : S1x256.BroadcastsInDim S12x256 (![0, 1] : Fin 2 → Fin S12x256.rank)
  reducesTo_S12x256_S256_d0 : S12x256.ReducesTo [0] S256
  h_S_ : 0 < S_.numel
  bcast_S1x256_S8192x256_0_1 : S1x256.BroadcastsInDim S8192x256 (![0, 1] : Fin 2 → Fin S8192x256.rank)

variable [Facts₀]

class Facts : Prop extends Facts₀ where

variable [Facts]
-- ==== Proof.LaunchWord.lean ====
/-
  The clip kernel's launch, written against the pipeline library's frame theorem.

  @main is a long run of host operations on small arrays — they compute, from the observation row alone, a lower
  and an upper bound per column — followed by ONE launch on a grid of four points. Each point stages a band of
  2048 rows of the big array (window 0), the two bound rows (windows 1 and 2, the same block at every point, fetched
  once) and writes back a band of 2048 rows of the result (window 3). The body stores, over the whole output band,
  min (upper, max (lower, x)) with the two rows repeated down the band.

  This module says what the region finds (`V`: the buffers after the host operations), what each window's block is
  at a point (`blk`), what the body leaves in the output band (`band`: the single store, which covers the band),
  proves the body's triple by symbolic execution, assembles the proof data and the body obligation, and runs the
  launch: every execution terminates without a fault, the result array ends at the library's overlay of the
  written-back bands (`Dat.arrAt`), and every buffer the launch does not stage keeps what the region found.
  Stated for any float instance: the word-level program and the idealized one are the same text.
-/
import proofs.«177407_j28484223107561_2_alg».proof.Proof.Gen.Kernel.Launch
import proofs.«177407_j28484223107561_2_alg».proof.Proof.Gen.Kernel.Skeleton
import proofs.«177407_j28484223107561_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Clip

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core `c`'s buffers when the launch is reached: the launch contents rewritten by every host operation, in order. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor

/-- @main is the host operations and then the launch; so the launch is entered with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- No host operation writes the big array: the launch finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nor the observation row. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the launch finds it. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: when it is not fetched the
    block index has not moved, and the body left the block in place. One statement per input window. -/
theorem found0 {c : Dev nD} (dat : Dat τ (Elt F) Unit ℕ (UR sig nD τ) ℕ cfg0 c) (hA : dat.A 0 = V m c (Pipeline.arrRef spec0 0))
    (hafter : ∀ t, dat.after 0 t = blk m c 0 t) (t : Fin cfg0.N) (d) : dat.before 0 t d = blk m c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found1 {c : Dev nD} (dat : Dat τ (Elt F) Unit ℕ (UR sig nD τ) ℕ cfg0 c) (hA : dat.A 1 = V m c (Pipeline.arrRef spec0 1))
    (hafter : ∀ t, dat.after 1 t = blk m c 1 t) (t : Fin cfg0.N) (d) : dat.before 1 t d = blk m c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found2 {c : Dev nD} (dat : Dat τ (Elt F) Unit ℕ (UR sig nD τ) ℕ cfg0 c) (hA : dat.A 2 = V m c (Pipeline.arrRef spec0 2))
    (hafter : ∀ t, dat.after 2 t = blk m c 2 t) (t : Fin cfg0.N) (d) : dat.before 2 t d = blk m c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## What the body leaves in the output band -/

/-- The whole band and the whole row, as the rectangles the body loads and stores through. -/
abbrev rBand : Rect S2048x256 := Rect.unit (s := S2048x256) ![0, 0] S2048x256.size inb_S2048x256_S2048x256_0_0
abbrev rRow : Rect S1x256 := Rect.unit (s := S1x256) ![0, 0] S1x256.size inb_S1x256_S1x256_0_0

/-- The output band after the body, from the three input blocks: its one store, as a list of pieces. -/
def band (x0 : Vec F S2048x256 .f32) (x1 : Vec F S1x256 .f32) (x2 : Vec F S1x256 .f32) : Vec F S2048x256 .f32 :=
  View.canon [⟨rBand, k0_pay1 (View.ld x0 rBand) (View.ld x1 rRow) (View.ld x2 rRow)⟩]

/-- The store is over the whole band, so it covers it. -/
theorem band_cover (p0 : Vec F S2048x256 .f32) (y : S2048x256.Idx) :
    ∃ pc ∈ ([⟨rBand, p0⟩] : List (View.Piece (Elt F) S2048x256 .f32)), y ∈ pc.1.set :=
  View.cover_of_tiled [⟨rBand, p0⟩] S2048x256.size (by rfl) y

/-! ## The body's triple -/

set_option maxHeartbeats 2000000 in
/-- On whole staging buffers — the three inputs at read contents `x0 x1 x2`, the output at anything — the body runs to
    its continuation with the inputs as they were and the output at `band x0 x1 x2`. (The body also loads the output
    band before it stores over all of it; what it loads is not used.) -/
theorem sound_kernel (c : Dev nD) (E : Set ℕ) (i : grid0.Coords)
    (arg1 : Memref sig .tc .vmem S2048x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S2048x256 .f32) (harg4 : arg4.IsWhole)
    (x0 : Vec F S2048x256 .f32) (x1 : Vec F S1x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (band x0 x1 x2)) -∗ K ⟨⟩))
      ⊢ wp frame (wpE (defs₀ (F := F)) Variants.none c none) E (cc0__clip_kernel i arg1 harg1 arg2 harg2 arg3 harg3 arg4 harg4) K := by
  simp only [cc0__clip_kernel_eq_skeleton]; unfold cc0__clip_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (band_cover _)

/-! ## The proof data -/

/-- The launch's proof data on core `c`: the arrays as the launch finds them; after the body at point `t` each input
    buffer still at its block and the output buffer at `band` of the three blocks; the invariant is the buffers and the
    generator register the body never touches; nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => band (blk m c 0 t) (blk m c 1 t) (blk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blk m c 0 t := by dsimp only [dats]
theorem after1 (c : Dev nD) (t : Fin cfg0.N) : (dats m 0 c).after 1 t = blk m c 1 t := by dsimp only [dats]
theorem after2 (c : Dev nD) (t : Fin cfg0.N) : (dats m 0 c).after 2 t = blk m c 2 t := by dsimp only [dats]
theorem after3 (c : Dev nD) (t : Fin cfg0.N) : (dats m 0 c).after 3 t = band (blk m c 0 t) (blk m c 1 t) (blk m c 2 t) := by dsimp only [dats]

theorem before0 (c : Dev nD) (t : Fin cfg0.N) (d) : (dats m 0 c).before 0 t d = blk m c 0 t :=
  found0 m (dats m 0 c) (A_eq m c 0) (after0 m c) t d
theorem before1 (c : Dev nD) (t : Fin cfg0.N) (d) : (dats m 0 c).before 1 t d = blk m c 1 t :=
  found1 m (dats m 0 c) (A_eq m c 1) (after1 m c) t d
theorem before2 (c : Dev nD) (t : Fin cfg0.N) (d) : (dats m 0 c).before 2 t d = blk m c 2 t :=
  found2 m (dats m 0 c) (A_eq m c 2) (after2 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the triple applies; the invariant and what the
    core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (blk m c 0 t) (blk m c 1 t) (blk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of @main terminates, and in every final state each
    array of the launch holds what the library computes from the proof data, and every other unscoped buffer what the
    launch found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run the big array is as launched: window 0 stages it and never writes it back. -/
theorem kept_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the run the observation row is as launched: no window stages it. -/
theorem kept_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the run the result array is the overlay of the written-back bands. -/
theorem post_result (r : PUnit × MemSt nD τ sig (Elt F)) (h : Pipeline.FramePost cfgs (dats m) 0 (V m) r) (c : Dev nD) :
    r.2.mem ((c : Thread nD τ).loc main_v139) = (dats m 0 c).arrAt 3 cfg0.N :=
  (h c).1 3

/-- The frame: the program runs to the end without a fault and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨kept_arg0 m r h c, kept_arg1 m r h c⟩) (run_main m ρ)

end Cert.Kernel.Clip

end
-- ==== Proof.LaunchIdeal.lean ====
/-
  The clip kernel's launch, written against the pipeline library's frame theorem.

  @main is a long run of host operations on small arrays — they compute, from the observation row alone, a lower
  and an upper bound per column — followed by ONE launch on a grid of four points. Each point stages a band of
  2048 rows of the big array (window 0), the two bound rows (windows 1 and 2, the same block at every point, fetched
  once) and writes back a band of 2048 rows of the result (window 3). The body stores, over the whole output band,
  min (upper, max (lower, x)) with the two rows repeated down the band.

  This module says what the region finds (`V`: the buffers after the host operations), what each window's block is
  at a point (`blk`), what the body leaves in the output band (`band`: the single store, which covers the band),
  proves the body's triple by symbolic execution, assembles the proof data and the body obligation, and runs the
  launch: every execution terminates without a fault, the result array ends at the library's overlay of the
  written-back bands (`Dat.arrAt`), and every buffer the launch does not stage keeps what the region found.
  Stated for any float instance: the word-level program and the idealized one are the same text.
-/
import proofs.«177407_j28484223107561_2_alg».proof.Proof.Gen.KernelIdeal.Launch
import proofs.«177407_j28484223107561_2_alg».proof.Proof.Gen.KernelIdeal.Skeleton
import proofs.«177407_j28484223107561_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Clip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core `c`'s buffers when the launch is reached: the launch contents rewritten by every host operation, in order. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor

/-- @main is the host operations and then the launch; so the launch is entered with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- No host operation writes the big array: the launch finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nor the observation row. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the launch finds it. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: when it is not fetched the
    block index has not moved, and the body left the block in place. One statement per input window. -/
theorem found0 {c : Dev nD} (dat : Dat τ (Elt F) Unit ℕ (UR sig nD τ) ℕ cfg0 c) (hA : dat.A 0 = V m c (Pipeline.arrRef spec0 0))
    (hafter : ∀ t, dat.after 0 t = blk m c 0 t) (t : Fin cfg0.N) (d) : dat.before 0 t d = blk m c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found1 {c : Dev nD} (dat : Dat τ (Elt F) Unit ℕ (UR sig nD τ) ℕ cfg0 c) (hA : dat.A 1 = V m c (Pipeline.arrRef spec0 1))
    (hafter : ∀ t, dat.after 1 t = blk m c 1 t) (t : Fin cfg0.N) (d) : dat.before 1 t d = blk m c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found2 {c : Dev nD} (dat : Dat τ (Elt F) Unit ℕ (UR sig nD τ) ℕ cfg0 c) (hA : dat.A 2 = V m c (Pipeline.arrRef spec0 2))
    (hafter : ∀ t, dat.after 2 t = blk m c 2 t) (t : Fin cfg0.N) (d) : dat.before 2 t d = blk m c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## What the body leaves in the output band -/

/-- The whole band and the whole row, as the rectangles the body loads and stores through. -/
abbrev rBand : Rect S2048x256 := Rect.unit (s := S2048x256) ![0, 0] S2048x256.size inb_S2048x256_S2048x256_0_0
abbrev rRow : Rect S1x256 := Rect.unit (s := S1x256) ![0, 0] S1x256.size inb_S1x256_S1x256_0_0

/-- The output band after the body, from the three input blocks: its one store, as a list of pieces. -/
def band (x0 : Vec F S2048x256 .f32) (x1 : Vec F S1x256 .f32) (x2 : Vec F S1x256 .f32) : Vec F S2048x256 .f32 :=
  View.canon [⟨rBand, k0_pay1 (View.ld x0 rBand) (View.ld x1 rRow) (View.ld x2 rRow)⟩]

/-- The store is over the whole band, so it covers it. -/
theorem band_cover (p0 : Vec F S2048x256 .f32) (y : S2048x256.Idx) :
    ∃ pc ∈ ([⟨rBand, p0⟩] : List (View.Piece (Elt F) S2048x256 .f32)), y ∈ pc.1.set :=
  View.cover_of_tiled [⟨rBand, p0⟩] S2048x256.size (by rfl) y

/-! ## The body's triple -/

set_option maxHeartbeats 2000000 in
/-- On whole staging buffers — the three inputs at read contents `x0 x1 x2`, the output at anything — the body runs to
    its continuation with the inputs as they were and the output at `band x0 x1 x2`. (The body also loads the output
    band before it stores over all of it; what it loads is not used.) -/
theorem sound_kernel (c : Dev nD) (E : Set ℕ) (i : grid0.Coords)
    (arg1 : Memref sig .tc .vmem S2048x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S2048x256 .f32) (harg4 : arg4.IsWhole)
    (x0 : Vec F S2048x256 .f32) (x1 : Vec F S1x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (band x0 x1 x2)) -∗ K ⟨⟩))
      ⊢ wp frame (wpE (defs₀ (F := F)) Variants.none c none) E (cc0__clip_kernel i arg1 harg1 arg2 harg2 arg3 harg3 arg4 harg4) K := by
  simp only [cc0__clip_kernel_eq_skeleton]; unfold cc0__clip_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (band_cover _)

/-! ## The proof data -/

/-- The launch's proof data on core `c`: the arrays as the launch finds them; after the body at point `t` each input
    buffer still at its block and the output buffer at `band` of the three blocks; the invariant is the buffers and the
    generator register the body never touches; nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => band (blk m c 0 t) (blk m c 1 t) (blk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blk m c 0 t := by dsimp only [dats]
theorem after1 (c : Dev nD) (t : Fin cfg0.N) : (dats m 0 c).after 1 t = blk m c 1 t := by dsimp only [dats]
theorem after2 (c : Dev nD) (t : Fin cfg0.N) : (dats m 0 c).after 2 t = blk m c 2 t := by dsimp only [dats]
theorem after3 (c : Dev nD) (t : Fin cfg0.N) : (dats m 0 c).after 3 t = band (blk m c 0 t) (blk m c 1 t) (blk m c 2 t) := by dsimp only [dats]

theorem before0 (c : Dev nD) (t : Fin cfg0.N) (d) : (dats m 0 c).before 0 t d = blk m c 0 t :=
  found0 m (dats m 0 c) (A_eq m c 0) (after0 m c) t d
theorem before1 (c : Dev nD) (t : Fin cfg0.N) (d) : (dats m 0 c).before 1 t d = blk m c 1 t :=
  found1 m (dats m 0 c) (A_eq m c 1) (after1 m c) t d
theorem before2 (c : Dev nD) (t : Fin cfg0.N) (d) : (dats m 0 c).before 2 t d = blk m c 2 t :=
  found2 m (dats m 0 c) (A_eq m c 2) (after2 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the triple applies; the invariant and what the
    core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (blk m c 0 t) (blk m c 1 t) (blk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of @main terminates, and in every final state each
    array of the launch holds what the library computes from the proof data, and every other unscoped buffer what the
    launch found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run the big array is as launched: window 0 stages it and never writes it back. -/
theorem kept_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the run the observation row is as launched: no window stages it. -/
theorem kept_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the run the result array is the overlay of the written-back bands. -/
theorem post_result (r : PUnit × MemSt nD τ sig (Elt F)) (h : Pipeline.FramePost cfgs (dats m) 0 (V m) r) (c : Dev nD) :
    r.2.mem ((c : Thread nD τ).loc main_v139) = (dats m 0 c).arrAt 3 cfg0.N :=
  (h c).1 3

/-- The frame: the program runs to the end without a fault and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨kept_arg0 m r h c, kept_arg1 m r h c⟩) (run_main m ρ)

end Cert.KernelIdeal.Clip

end
-- ==== Proof.ValueIdeal.lean ====
/-
  What the clip kernel's result array holds after the launch, as ONE function of the arrays the launch finds.

  The array is tiled by four bands of 2048 rows; point `t` writes band `t`. Inside a band the body's store at
  (r, q) is  min (hi q, max (lo q, x (r, q)))  where x is the band of the big array and lo, hi the two bound rows,
  read at row 0 whatever r is. Band `t` of the big array sits at the same rows as band `t` of the result, and the
  bound rows never move, so every band is the restriction of one whole-array function, `clip`; the four bands
  cover every row, so the array ends at `clip` everywhere.
-/
import proofs.«177407_j28484223107561_2_alg».proof.Proof.LaunchIdeal
import Idealize.ShloMosaic.Lib.Pipeline.Value

set_option maxRecDepth 16384

noncomputable section

namespace Cert.KernelIdeal.Clip

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The function -/

/-- Column `q` of a one-row matrix, as an index: (0, q). -/
def atRow0 (q : Fin 256) : S1x256.Idx := fun a => match a with
  | ⟨0, _⟩ => ⟨0, Nat.one_pos⟩
  | ⟨1, _⟩ => ⟨q.val, q.isLt⟩

/-- Entry (r, q) clipped between column q's bounds: min (hi q, max (lo q, a (r, q))). -/
def clip (a : S8192x256.Idx → Elt F .f32) (lo hi : S1x256.Idx → Elt F .f32) : S8192x256.Idx → Elt F .f32 :=
  fun i => FloatOps.minimumf (hi (atRow0 (i 1))) (FloatOps.maximumf (lo (atRow0 (i 1))) (a i))

/-! ## The body's store at an index of the band -/

theorem zeros2 : (![0, 0] : Fin 2 → Nat) = fun _ => 0 := funext fun a => by fin_cases a <;> rfl

/-- A row repeated down a band, read at (r, q), is the row at (0, q). -/
theorem repeat_apply (x : Vec F S1x256 .f32) (j : S2048x256.Idx) :
    broadcastTo S2048x256 (shapeCast S1x256 x shapeCasts_S1x256_S1x256) broadcasts_S1x256_S2048x256 j = x (atRow0 (j 1)) := by
  rw [shapeCast_self]
  exact broadcastTo_apply x broadcasts_S1x256_S2048x256 j (atRow0 (j 1)) (fun a => match a with
    | ⟨0, _⟩ => by show (0 : Nat) = if (1 : Nat) = 1 then 0 else _; rw [if_pos rfl]
    | ⟨1, _⟩ => by show (j 1).val = if (256 : Nat) = 1 then 0 else (j 1).val; rw [if_neg (by decide)])

/-- The stored value at (r, q) of the band. -/
theorem pay_apply (x0 : Vec F S2048x256 .f32) (x1 x2 : Vec F S1x256 .f32) (j : S2048x256.Idx) :
    k0_pay1 x0 x1 x2 j = FloatOps.minimumf (x2 (atRow0 (j 1))) (FloatOps.maximumf (x1 (atRow0 (j 1))) (x0 j)) := by
  unfold k0_pay1
  show FloatOps.minimumf (broadcastTo S2048x256 (shapeCast S1x256 x2 shapeCasts_S1x256_S1x256) broadcasts_S1x256_S2048x256 j)
      (FloatOps.maximumf (broadcastTo S2048x256 (shapeCast S1x256 x1 shapeCasts_S1x256_S1x256) broadcasts_S1x256_S2048x256 j) (x0 j)) = _
  rw [repeat_apply, repeat_apply]

/-! ## Where the blocks sit -/

/-- The four windows' block indices at point `t`: the big array's and the result's bands are band `t`, column block 0;
    the two bound rows are always block (0, 0). Decided over the four points. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is band `t` of `clip` of the arrays the launch finds. -/
theorem flushed_eq (c : Dev nD) (t : Fin cfg0.N) :
    (dats m 0 c).flushed 3 t = ((cfg0.win 3).blk t).view.read (Elt F) (clip (V m c main_arg0) (V m c main_v137) (V m c main_v138)) := by
  show (cfg0.win 3).cut (grid0.coords t) ((dats m 0 c).after 3 t) = _
  rw [after3]
  unfold band
  rw [View.canon_unit_zero zeros2]
  simp only [View.ld_unit_zero (S := S2048x256) zeros2, View.ld_unit_zero (S := S1x256) zeros2]
  obtain ⟨e0, e1, e2, e3, e4, e5, e6, e7⟩ := block_indices t
  funext j
  refine (pay_apply (blk m c 0 t) (blk m c 1 t) (blk m c 2 t) j).trans ?_
  show FloatOps.minimumf (V m c main_v138 (((cfg0.win 2).blk t).view.emb (atRow0 (j 1))))
      (FloatOps.maximumf (V m c main_v137 (((cfg0.win 1).blk t).view.emb (atRow0 (j 1)))) (V m c main_arg0 (((cfg0.win 0).blk t).view.emb j)))
    = FloatOps.minimumf (V m c main_v138 (atRow0 ((((cfg0.win 3).blk t).view.emb j) 1)))
      (FloatOps.maximumf (V m c main_v137 (atRow0 ((((cfg0.win 3).blk t).view.emb j) 1))) (V m c main_arg0 (((cfg0.win 3).blk t).view.emb j)))
  have h0 : ((cfg0.win 0).blk t).view.emb j = ((cfg0.win 3).blk t).view.emb j := by
    funext a; apply Fin.ext
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 256 + 1 * (j 1).val = win0_3.index t (1 : Fin 2) * 256 + 1 * (j 1).val; omega
  have h1 : ((cfg0.win 1).blk t).view.emb (atRow0 (j 1)) = atRow0 ((((cfg0.win 3).blk t).view.emb j) 1) := by
    funext a; apply Fin.ext
    match a with
    | ⟨0, _⟩ => show win0_1.index t (0 : Fin 2) * 1 + 1 * 0 = 0; omega
    | ⟨1, _⟩ => show win0_1.index t (1 : Fin 2) * 256 + 1 * (j 1).val = win0_3.index t (1 : Fin 2) * 256 + 1 * (j 1).val; omega
  have h2 : ((cfg0.win 2).blk t).view.emb (atRow0 (j 1)) = atRow0 ((((cfg0.win 3).blk t).view.emb j) 1) := by
    funext a; apply Fin.ext
    match a with
    | ⟨0, _⟩ => show win0_2.index t (0 : Fin 2) * 1 + 1 * 0 = 0; omega
    | ⟨1, _⟩ => show win0_2.index t (1 : Fin 2) * 256 + 1 * (j 1).val = win0_3.index t (1 : Fin 2) * 256 + 1 * (j 1).val; omega
  rw [h0, h1, h2]

/-- An index of the result is in point `t`'s band iff each coordinate is in the band's range on its axis. -/
theorem mem_band (t : Fin cfg0.N) (i : S8192x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v139).slice (win0_3.rect t)).set ↔ _
  rw [View.set_slice_whole, Rect.mem_set_unit]
  exact Iff.rfl

/-- Row r lies in band r / 2048, which some point writes back. -/
theorem bands_cover (i : S8192x256.Idx) : ∃ t : Fin cfg0.N, (cfg0.win 3).flush t = true ∧ i ∈ ((cfg0.win 3).blk t).view.set := by
  have hi0 : (i 0).val < 8192 := (i 0).isLt
  have hi1 : (i 1).val < 256 := (i 1).isLt
  let t : Fin cfg0.N := ⟨(i 0).val / 2048, by show (i 0).val / 2048 < grid0.N; rw [N_0]; omega⟩
  refine ⟨t, flush0_3 t, ?_⟩
  obtain ⟨e0, e1, e2, e3, e4, e5, e6, e7⟩ := block_indices t
  have ht : t.val = (i 0).val / 2048 := rfl
  rw [mem_band]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 256 ≤ (i 1).val ∧ (i 1).val < win0_3.index t (1 : Fin 2) * 256 + 256; omega

/-- The result array after the run is `clip` of what the launch finds. -/
theorem final (c : Dev nD) : (dats m 0 c).arrAt 3 cfg0.N = clip (V m c main_arg0) (V m c main_v137) (V m c main_v138) :=
  (dats m 0 c).arrAt_eq_of_cover 3 (clip (V m c main_arg0) (V m c main_v137) (V m c main_v138)) (fun t _ => flushed_eq m c t) bands_cover

/-- The run, read: the result is the big array clipped between the two bound rows the host operations computed, and the
    arguments are unchanged. -/
theorem run : θ_run defs (onTc (τ := τ) (main (F := F))) ⟨m, fun _ => 0, ρ⟩ fun r => ∀ c : Dev nD,
      r.2.mem ((c : Thread nD τ).loc main_v139) = clip (m ((c : Thread nD τ).loc main_arg0)) (V m c main_v137) (V m c main_v138)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((post_result m r h c).trans (final m c)).trans (by rw [V_main_arg0]),
      kept_arg0 m r h c, kept_arg1 m r h c⟩)
    (run_main m ρ)

end Cert.KernelIdeal.Clip

end
-- ==== Proof.RefRun.lean ====
/-
  The reference's run, and its result as a function of the two arguments.

  The reference is a straight line of host operations: the same small operations as the kernel's program compute the
  two bound vectors from the observation row (a minimum and a maximum over twelve candidate rows per column, the
  infeasible candidates masked to +inf and -inf); then each vector is laid out as one row, the rows are repeated down
  the 8192 rows of the big array, and the result is  min (hi, max (lo, x))  entry by entry.

  `ops` lists @main's operations in order (a called function's operations in its call's place). Every execution ends
  with each buffer at the fold of the operations over the launch contents (`run_all`). The two arguments are written by no
  operation. `lo M` and `hi M` are the fold at the two bound vectors' buffers; the fold at the result buffer is the clip of
  the big array between them, and at (r, q) that is  min (hi q, max (lo q, x (r, q))).
-/
import proofs.«177407_j28484223107561_2_alg».proof.Proof.Gen.ReferenceIdeal
import Idealize.ShloMosaic.Lib.StableHlo.Run
import Idealize.ShloMosaic.Lib.Pipeline.Value
import Idealize.ShloMosaic.Lib.Tactic

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.Tactic

variable {F : FTy → Type} [FloatOps F]

/-! ## The operations and the run -/

/-- @main's operations, in order. -/
abbrev ops : List (HloOp τ sig (Elt F)) :=
  [ reshape main_arg1 main_v0 rfl shapeCasts_S1x1024_S1024,
    reshape main_v0 main_v1 rfl shapeCasts_S1024_S256x4,
    unary main_v1 main_v2 ((extractStridedSlice S256x1 ![0, 0] · slices_S256x4_S256x1_0_0) : (⟨S256x4, .f32⟩ : BufTy).Contents (Elt F) → (⟨S256x1, .f32⟩ : BufTy).Contents (Elt F)),
    reshape main_v2 main_v3 rfl shapeCasts_S256x1_S256,
    unary main_v1 main_v4 ((extractStridedSlice S256x1 ![0, 1] · slices_S256x4_S256x1_0_1) : (⟨S256x4, .f32⟩ : BufTy).Contents (Elt F) → (⟨S256x1, .f32⟩ : BufTy).Contents (Elt F)),
    reshape main_v4 main_v5 rfl shapeCasts_S256x1_S256,
    unary main_v1 main_v6 ((extractStridedSlice S256x1 ![0, 2] · slices_S256x4_S256x1_0_2) : (⟨S256x4, .f32⟩ : BufTy).Contents (Elt F) → (⟨S256x1, .f32⟩ : BufTy).Contents (Elt F)),
    reshape main_v6 main_v7 rfl shapeCasts_S256x1_S256,
    unary main_v1 main_v8 ((extractStridedSlice S256x1 ![0, 3] · slices_S256x4_S256x1_0_3) : (⟨S256x4, .f32⟩ : BufTy).Contents (Elt F) → (⟨S256x1, .f32⟩ : BufTy).Contents (Elt F)),
    reshape main_v8 main_v9 rfl shapeCasts_S256x1_S256,
    nullary main_cst (constant S_ .f32 0x00000000#32),
    unary main_cst main_v10 (broadcastInDim S256 ![] bcast_S_S256 : (⟨S_, .f32⟩ : BufTy).Contents (Elt F) → (⟨S256, .f32⟩ : BufTy).Contents (Elt F)),
    binary main_v5 main_v10 main_v11 (cmpf .ogt : (⟨S256, .f32⟩ : BufTy).Contents (Elt F) → (⟨S256, .f32⟩ : BufTy).Contents (Elt F) → (⟨S256, .i1⟩ : BufTy).Contents (Elt F)),
    nullary main_cst_0 (constant S_ .f32 0x00000000#32),
    unary main_cst_0 main_v12 (broadcastInDim S256 ![] bcast_S_S256 : (⟨S_, .f32⟩ : BufTy).Contents (Elt F) → (⟨S256, .f32⟩ : BufTy).Contents (Elt F)),
    nullary main_cst_1 (constant S_ .f32 0x447A0000#32),
    unary main_cst_1 main_v13 (broadcastInDim S256 ![] bcast_S_S256 : (⟨S_, .f32⟩ : BufTy).Contents (Elt F) → (⟨S256, .f32⟩ : BufTy).Contents (Elt F)),
    binary main_v13 main_v5 main_v14 (mulf : (⟨S256, .f32⟩ : BufTy).Contents (Elt F) → (⟨S256, .f32⟩ : BufTy).Contents (Elt F) → (⟨S256, .f32⟩ : BufTy).Contents (Elt F)),
    nullary main_cst_2 (constant S_ .f32 0x3E800000#32),
    unary main_cst_2 main_v15 (broadcastInDim S256 ![] bcast_S_S256 : (⟨S_, .f32⟩ : BufTy).Contents (Elt F) → (⟨S256, .f32⟩ : BufTy).Contents (Elt F)),
    binary main_v15 main_v14 main_v16 (minimumf : (⟨S256, .f32⟩ : BufTy).Contents (Elt F) → (⟨S256, .f32⟩ : BufTy).Contents (Elt F) → (⟨S256, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S256, .f32⟩) main_call0_v1) (broadcastInDim S256 ![] bcast_S_S256),
    TRef.ternary (TRef.of (T := ⟨S256, .i1⟩) main_v11) (TRef.of (T := ⟨S256, .f32⟩) main_v16) (TRef.of (T := ⟨S256, .f32⟩) main_call0_v1) (TRef.of (T := ⟨S256, .f32⟩) main_v17) select,
    nullary main_cst_4 (constant S_ .f32 0x00000000#32),
    unary main_cst_4 main_v18 (broadcastInDim S256 ![] bcast_S_S256 : (⟨S_, .f32⟩ : BufTy).Contents (Elt F) → (⟨S256, .f32⟩ : BufTy).Contents (Elt F)),
    binary main_v9 main_v18 main_v19 (cmpf .ogt : (⟨S256, .f32⟩ : BufTy).Contents (Elt F) → (⟨S256, .f32⟩ : BufTy).Contents (Elt F) → (⟨S256, .i1⟩ : BufTy).Contents (Elt F)),
    binary main_v11 main_v19 main_v20 (andi : (⟨S256, .i1⟩ : BufTy).Contents (Elt F) → (⟨S256, .i1⟩ : BufTy).Contents (Elt F) → (⟨S256, .i1⟩ : BufTy).Contents (Elt F)),
    nullary main_cst_5 (constant S_ .f32 0xBF733333#32),
    unary main_cst_5 main_v21 (broadcastInDim S256 ![] bcast_S_S256 : (⟨S_, .f32⟩ : BufTy).Contents (Elt F) → (⟨S256, .f32⟩ : BufTy).Contents (Elt F)),
    binary main_v21 main_v7 main_v22 (mulf : (⟨S256, .f32⟩ : BufTy).Contents (Elt F) → (⟨S256, .f32⟩ : BufTy).Contents (Elt F) → (⟨S256, .f32⟩ : BufTy).Contents (Elt F)),
    nullary main_cst_6 (constant S_ .f32 0xBE800000#32),
    unary main_cst_6 main_v23 (broadcastInDim S256 ![] bcast_S_S256 : (⟨S_, .f32⟩ : BufTy).Contents (Elt F) → (⟨S256, .f32⟩ : BufTy).Contents (Elt F)),
    binary main_v23 main_v22 main_v24 (maximumf : (⟨S256, .f32⟩ : BufTy).Contents (Elt F) → (⟨S256, .f32⟩ : BufTy).Contents (Elt F) → (⟨S256, .f32⟩ : BufTy).Contents (Elt F)),
    nullary main_cst_7 (constant S_ .f32 0xC47A0000#32),
    unary main_cst_7 main_v25 (broadcastInDim S256 ![] bcast_S_S256 : (⟨S_, .f32⟩ : BufTy).Contents (Elt F) → (⟨S256, .f32⟩ : BufTy).Contents (Elt F)),
    binary main_v25 main_v5 main_v26 (mulf : (⟨S256, .f32⟩ : BufTy).Contents (Elt F) → (⟨S256, .f32⟩ : BufTy).Contents (Elt F) → (⟨S256, .f32⟩ : BufTy).Contents (Elt F)),
    nullary main_cst_8 (constant S_ .f32 0xC47A0000#32),
    unary main_cst_8 main_v27 (broadcastInDim S256 ![] bcast_S_S256 : (⟨S_, .f32⟩ : BufTy).Contents (Elt F) → (⟨S256, .f32⟩ : BufTy).Contents (Elt F)),
    binary main_v27 main_v9 main_v28 (mulf : (⟨S256, .f32⟩ : BufTy).Contents (Elt F) → (⟨S256, .f32⟩ : BufTy).Contents (Elt F) → (⟨S256, .f32⟩ : BufTy).Contents (Elt F)),
    binary main_v26 main_v28 main_v29 (maximumf : (⟨S256, .f32⟩ : BufTy).Contents (Elt F) → (⟨S256, .f32⟩ : BufTy).Contents (Elt F) → (⟨S256, .f32⟩ : BufTy).Contents (Elt F)),
    binary main_v24 main_v29 main_v30 (maximumf : (⟨S256, .f32⟩ : BufTy).Contents (Elt F) → (⟨S256, .f32⟩ : BufTy).Contents (Elt F) → (⟨S256, .f32⟩ : BufTy).Contents (Elt F)),
    nullary main_cst_9 (constant S_ .f32 0x00000000#32),
    TRef.unary (TRef.of (T := ⟨S_, .f32⟩) main_cst_9) (TRef.of (T := ⟨S_, .f32⟩) main_call1_v0) id,
    TRef.unary (TRef.of (T := ⟨S_, .f32⟩) main_call1_v0) (TRef.of (T := ⟨S256, .f32⟩) main_call1_v1) (broadcastInDim S256 ![] bcast_S_S256),
    TRef.ternary (TRef.of (T := ⟨S256, .i1⟩) main_v20) (TRef.of (T := ⟨S256, .f32⟩) main_v30) (TRef.of (T := ⟨S256, .f32⟩) main_call1_v1) (TRef.of (T := ⟨S256, .f32⟩) main_v31) select,
    nullary main_cst_10 (constant S_ .f32 0x00000000#32),
    unary main_cst_10 main_v32 (broadcastInDim S256 ![] bcast_S_S256 : (⟨S_, .f32⟩ : BufTy).Contents (Elt F) → (⟨S256, .f32⟩ : BufTy).Contents (Elt F)),
    nullary main_cst_11 (constant S_ .f32 0x3F800000#32),
    unary main_cst_11 main_v33 (broadcastInDim S256 ![] bcast_S_S256 : (⟨S_, .f32⟩ : BufTy).Contents (Elt F) → (⟨S256, .f32⟩ : BufTy).Contents (Elt F)),
    binary main_v5 main_v33 main_v34 (subf : (⟨S256, .f32⟩ : BufTy).Contents (Elt F) → (⟨S256, .f32⟩ : BufTy).Contents (Elt F) → (⟨S256, .f32⟩ : BufTy).Contents (Elt F)),
    nullary main_cst_12 (constant S_ .f32 0x41200000#32),
    unary main_cst_12 main_v35 (broadcastInDim S256 ![] bcast_S_S256 : (⟨S_, .f32⟩ : BufTy).Contents (Elt F) → (⟨S256, .f32⟩ : BufTy).Contents (Elt F)),
    binary main_v34 main_v35 main_v36 (mulf : (⟨S256, .f32⟩ : BufTy).Contents (Elt F) → (⟨S256, .f32⟩ : BufTy).Contents (Elt F) → (⟨S256, .f32⟩ : BufTy).Contents (Elt F)),
    nullary main_cst_13 (constant S_ .f32 0x3F733333#32),
    unary main_cst_13 main_v37 (broadcastInDim S256 ![] bcast_S_S256 : (⟨S_, .f32⟩ : BufTy).Contents (Elt F) → (⟨S256, .f32⟩ : BufTy).Contents (Elt F)),
    binary main_v36 main_v37 main_v38 (mulf : (⟨S256, .f32⟩ : BufTy).Contents (Elt F) → (⟨S256, .f32⟩ : BufTy).Contents (Elt F) → (⟨S256, .f32⟩ : BufTy).Contents (Elt F)),
    nullary main_cst_14 (constant S_ .f32 0x42200000#32),
    unary main_cst_14 main_v39 (broadcastInDim S256 ![] bcast_S_S256 : (⟨S_, .f32⟩ : BufTy).Contents (Elt F) → (⟨S256, .f32⟩ : BufTy).Contents (Elt F)),
    binary main_v38 main_v39 main_v40 (Host.divf : (⟨S256, .f32⟩ : BufTy).Contents (Elt F) → (⟨S256, .f32⟩ : BufTy).Contents (Elt F) → (⟨S256, .f32⟩ : BufTy).Contents (Elt F)),
    nullary main_cst_15 (constant S_ .f32 0x3F800000#32),
    unary main_cst_15 main_v41 (broadcastInDim S256 ![] bcast_S_S256 : (⟨S_, .f32⟩ : BufTy).Contents (Elt F) → (⟨S256, .f32⟩ : BufTy).Contents (Elt F)),
    binary main_v41 main_v40 main_v42 (subf : (⟨S256, .f32⟩ : BufTy).Contents (Elt F) → (⟨S256, .f32⟩ : BufTy).Contents (Elt F) → (⟨S256, .f32⟩ : BufTy).Contents (Elt F)),
    nullary main_cst_16 (constant S_ .f32 0x00000000#32),
    unary main_cst_16 main_v43 (broadcastInDim S256 ![] bcast_S_S256 : (⟨S_, .f32⟩ : BufTy).Contents (Elt F) → (⟨S256, .f32⟩ : BufTy).Contents (Elt F)),
    binary main_v43 main_v42 main_v44 (maximumf : (⟨S256, .f32⟩ : BufTy).Contents (Elt F) → (⟨S256, .f32⟩ : BufTy).Contents (Elt F) → (⟨S256, .f32⟩ : BufTy).Contents (Elt F)),
    binary main_v44 main_v3 main_v45 (subf : (⟨S256, .f32⟩ : BufTy).Contents (Elt F) → (⟨S256, .f32⟩ : BufTy).Contents (Elt F) → (⟨S256, .f32⟩ : BufTy).Contents (Elt F)),
    nullary main_cst_17 (constant S_ .f32 0xCE6E6B28#32),
    TRef.unary (TRef.of (T := ⟨S_, .f32⟩) main_cst_17) (TRef.of (T := ⟨S_, .f32⟩) main_call2_v0) id,
    TRef.unary (TRef.of (T := ⟨S_, .f32⟩) main_call2_v0) (TRef.of (T := ⟨S256, .f32⟩) main_call2_v1) (broadcastInDim S256 ![] bcast_S_S256),
    TRef.ternary (TRef.of (T := ⟨S256, .i1⟩) main_v11) (TRef.of (T := ⟨S256, .f32⟩) main_v45) (TRef.of (T := ⟨S256, .f32⟩) main_call2_v1) (TRef.of (T := ⟨S256, .f32⟩) main_v46) select,
    nullary main_cst_18 (constant S_ .f32 0x3F800000#32),
    unary main_cst_18 main_v47 (broadcastInDim S256 ![] bcast_S_S256 : (⟨S_, .f32⟩ : BufTy).Contents (Elt F) → (⟨S256, .f32⟩ : BufTy).Contents (Elt F)),
    binary main_v47 main_v3 main_v48 (subf : (⟨S256, .f32⟩ : BufTy).Contents (Elt F) → (⟨S256, .f32⟩ : BufTy).Contents (Elt F) → (⟨S256, .f32⟩ : BufTy).Contents (Elt F)),
    nullary main_cst_19 (constant S_ .f32 0x4E6E6B28#32),
    TRef.unary (TRef.of (T := ⟨S_, .f32⟩) main_cst_19) (TRef.of (T := ⟨S_, .f32⟩) main_call3_v0) id,
    TRef.unary (TRef.of (T := ⟨S_, .f32⟩) main_call3_v0) (TRef.of (T := ⟨S256, .f32⟩) main_call3_v1) (broadcastInDim S256 ![] bcast_S_S256),
    TRef.ternary (TRef.of (T := ⟨S256, .i1⟩) main_v11) (TRef.of (T := ⟨S256, .f32⟩) main_v48) (TRef.of (T := ⟨S256, .f32⟩) main_call3_v1) (TRef.of (T := ⟨S256, .f32⟩) main_v49) select,
    unary main_v12 main_v50 (broadcastInDim S1x256 ![1] bcast_S256_S1x256_1 : (⟨S256, .f32⟩ : BufTy).Contents (Elt F) → (⟨S1x256, .f32⟩ : BufTy).Contents (Elt F)),
    unary main_v12 main_v51 (broadcastInDim S1x256 ![1] bcast_S256_S1x256_1 : (⟨S256, .f32⟩ : BufTy).Contents (Elt F) → (⟨S1x256, .f32⟩ : BufTy).Contents (Elt F)),
    unary main_v17 main_v52 (broadcastInDim S1x256 ![1] bcast_S256_S1x256_1 : (⟨S256, .f32⟩ : BufTy).Contents (Elt F) → (⟨S1x256, .f32⟩ : BufTy).Contents (Elt F)),
    unary main_v17 main_v53 (broadcastInDim S1x256 ![1] bcast_S256_S1x256_1 : (⟨S256, .f32⟩ : BufTy).Contents (Elt F) → (⟨S1x256, .f32⟩ : BufTy).Contents (Elt F)),
    nary ![main_v50, main_v51, main_v52, main_v53] main_v54 (fun u => concatenate S4x256 0 [⟨S1x256, u 0⟩, ⟨S1x256, u 1⟩, ⟨S1x256, u 2⟩, ⟨S1x256, u 3⟩] concatenates_S1x256_S1x256_S1x256_S1x256_S4x256_d0),
    unary main_v31 main_v55 (broadcastInDim S1x256 ![1] bcast_S256_S1x256_1 : (⟨S256, .f32⟩ : BufTy).Contents (Elt F) → (⟨S1x256, .f32⟩ : BufTy).Contents (Elt F)),
    unary main_v32 main_v56 (broadcastInDim S1x256 ![1] bcast_S256_S1x256_1 : (⟨S256, .f32⟩ : BufTy).Contents (Elt F) → (⟨S1x256, .f32⟩ : BufTy).Contents (Elt F)),
    unary main_v31 main_v57 (broadcastInDim S1x256 ![1] bcast_S256_S1x256_1 : (⟨S256, .f32⟩ : BufTy).Contents (Elt F) → (⟨S1x256, .f32⟩ : BufTy).Contents (Elt F)),
    unary main_v32 main_v58 (broadcastInDim S1x256 ![1] bcast_S256_S1x256_1 : (⟨S256, .f32⟩ : BufTy).Contents (Elt F) → (⟨S1x256, .f32⟩ : BufTy).Contents (Elt F)),
    nary ![main_v55, main_v56, main_v57, main_v58] main_v59 (fun u => concatenate S4x256 0 [⟨S1x256, u 0⟩, ⟨S1x256, u 1⟩, ⟨S1x256, u 2⟩, ⟨S1x256, u 3⟩] concatenates_S1x256_S1x256_S1x256_S1x256_S4x256_d0),
    unary main_v12 main_v60 (broadcastInDim S1x256 ![1] bcast_S256_S1x256_1 : (⟨S256, .f32⟩ : BufTy).Contents (Elt F) → (⟨S1x256, .f32⟩ : BufTy).Contents (Elt F)),
    unary main_v17 main_v61 (broadcastInDim S1x256 ![1] bcast_S256_S1x256_1 : (⟨S256, .f32⟩ : BufTy).Contents (Elt F) → (⟨S1x256, .f32⟩ : BufTy).Contents (Elt F)),
    unary main_v12 main_v62 (broadcastInDim S1x256 ![1] bcast_S256_S1x256_1 : (⟨S256, .f32⟩ : BufTy).Contents (Elt F) → (⟨S1x256, .f32⟩ : BufTy).Contents (Elt F)),
    unary main_v17 main_v63 (broadcastInDim S1x256 ![1] bcast_S256_S1x256_1 : (⟨S256, .f32⟩ : BufTy).Contents (Elt F) → (⟨S1x256, .f32⟩ : BufTy).Contents (Elt F)),
    nary ![main_v60, main_v61, main_v62, main_v63] main_v64 (fun u => concatenate S4x256 0 [⟨S1x256, u 0⟩, ⟨S1x256, u 1⟩, ⟨S1x256, u 2⟩, ⟨S1x256, u 3⟩] concatenates_S1x256_S1x256_S1x256_S1x256_S4x256_d0),
    unary main_v46 main_v65 (broadcastInDim S1x256 ![1] bcast_S256_S1x256_1 : (⟨S256, .f32⟩ : BufTy).Contents (Elt F) → (⟨S1x256, .f32⟩ : BufTy).Contents (Elt F)),
    unary main_v46 main_v66 (broadcastInDim S1x256 ![1] bcast_S256_S1x256_1 : (⟨S256, .f32⟩ : BufTy).Contents (Elt F) → (⟨S1x256, .f32⟩ : BufTy).Contents (Elt F)),
    unary main_v49 main_v67 (broadcastInDim S1x256 ![1] bcast_S256_S1x256_1 : (⟨S256, .f32⟩ : BufTy).Contents (Elt F) → (⟨S1x256, .f32⟩ : BufTy).Contents (Elt F)),
    unary main_v49 main_v68 (broadcastInDim S1x256 ![1] bcast_S256_S1x256_1 : (⟨S256, .f32⟩ : BufTy).Contents (Elt F) → (⟨S1x256, .f32⟩ : BufTy).Contents (Elt F)),
    nary ![main_v65, main_v66, main_v67, main_v68] main_v69 (fun u => concatenate S4x256 0 [⟨S1x256, u 0⟩, ⟨S1x256, u 1⟩, ⟨S1x256, u 2⟩, ⟨S1x256, u 3⟩] concatenates_S1x256_S1x256_S1x256_S1x256_S4x256_d0),
    nullary main_cst_20 (constant S_ .f32 0x3F733333#32),
    unary main_cst_20 main_v70 (broadcastInDim S4x256 ![] bcast_S_S4x256 : (⟨S_, .f32⟩ : BufTy).Contents (Elt F) → (⟨S4x256, .f32⟩ : BufTy).Contents (Elt F)),
    binary main_v70 main_v64 main_v71 (mulf : (⟨S4x256, .f32⟩ : BufTy).Contents (Elt F) → (⟨S4x256, .f32⟩ : BufTy).Contents (Elt F) → (⟨S4x256, .f32⟩ : BufTy).Contents (Elt F)),
    binary main_v69 main_v71 main_v72 (subf : (⟨S4x256, .f32⟩ : BufTy).Contents (Elt F) → (⟨S4x256, .f32⟩ : BufTy).Contents (Elt F) → (⟨S4x256, .f32⟩ : BufTy).Contents (Elt F)),
    nullary main_cst_21 (constant S_ .f32 0x3F86BCA2#32),
    unary main_cst_21 main_v73 (broadcastInDim S4x256 ![] bcast_S_S4x256 : (⟨S_, .f32⟩ : BufTy).Contents (Elt F) → (⟨S4x256, .f32⟩ : BufTy).Contents (Elt F)),
    binary main_v72 main_v73 main_v74 (Host.divf : (⟨S4x256, .f32⟩ : BufTy).Contents (Elt F) → (⟨S4x256, .f32⟩ : BufTy).Contents (Elt F) → (⟨S4x256, .f32⟩ : BufTy).Contents (Elt F)),
    unary main_v31 main_v75 (broadcastInDim S1x256 ![1] bcast_S256_S1x256_1 : (⟨S256, .f32⟩ : BufTy).Contents (Elt F) → (⟨S1x256, .f32⟩ : BufTy).Contents (Elt F)),
    unary main_v32 main_v76 (broadcastInDim S1x256 ![1] bcast_S256_S1x256_1 : (⟨S256, .f32⟩ : BufTy).Contents (Elt F) → (⟨S1x256, .f32⟩ : BufTy).Contents (Elt F)),
    unary main_v31 main_v77 (broadcastInDim S1x256 ![1] bcast_S256_S1x256_1 : (⟨S256, .f32⟩ : BufTy).Contents (Elt F) → (⟨S1x256, .f32⟩ : BufTy).Contents (Elt F)),
    unary main_v32 main_v78 (broadcastInDim S1x256 ![1] bcast_S256_S1x256_1 : (⟨S256, .f32⟩ : BufTy).Contents (Elt F) → (⟨S1x256, .f32⟩ : BufTy).Contents (Elt F)),
    nary ![main_v75, main_v76, main_v77, main_v78] main_v79 (fun u => concatenate S4x256 0 [⟨S1x256, u 0⟩, ⟨S1x256, u 1⟩, ⟨S1x256, u 2⟩, ⟨S1x256, u 3⟩] concatenates_S1x256_S1x256_S1x256_S1x256_S4x256_d0),
    unary main_v46 main_v80 (broadcastInDim S1x256 ![1] bcast_S256_S1x256_1 : (⟨S256, .f32⟩ : BufTy).Contents (Elt F) → (⟨S1x256, .f32⟩ : BufTy).Contents (Elt F)),
    unary main_v46 main_v81 (broadcastInDim S1x256 ![1] bcast_S256_S1x256_1 : (⟨S256, .f32⟩ : BufTy).Contents (Elt F) → (⟨S1x256, .f32⟩ : BufTy).Contents (Elt F)),
    unary main_v49 main_v82 (broadcastInDim S1x256 ![1] bcast_S256_S1x256_1 : (⟨S256, .f32⟩ : BufTy).Contents (Elt F) → (⟨S1x256, .f32⟩ : BufTy).Contents (Elt F)),
    unary main_v49 main_v83 (broadcastInDim S1x256 ![1] bcast_S256_S1x256_1 : (⟨S256, .f32⟩ : BufTy).Contents (Elt F) → (⟨S1x256, .f32⟩ : BufTy).Contents (Elt F)),
    nary ![main_v80, main_v81, main_v82, main_v83] main_v84 (fun u => concatenate S4x256 0 [⟨S1x256, u 0⟩, ⟨S1x256, u 1⟩, ⟨S1x256, u 2⟩, ⟨S1x256, u 3⟩] concatenates_S1x256_S1x256_S1x256_S1x256_S4x256_d0),
    nullary main_cst_22 (constant S_ .f32 0x3F86BCA2#32),
    unary main_cst_22 main_v85 (broadcastInDim S4x256 ![] bcast_S_S4x256 : (⟨S_, .f32⟩ : BufTy).Contents (Elt F) → (⟨S4x256, .f32⟩ : BufTy).Contents (Elt F)),
    binary main_v85 main_v79 main_v86 (mulf : (⟨S4x256, .f32⟩ : BufTy).Contents (Elt F) → (⟨S4x256, .f32⟩ : BufTy).Contents (Elt F) → (⟨S4x256, .f32⟩ : BufTy).Contents (Elt F)),
    binary main_v84 main_v86 main_v87 (subf : (⟨S4x256, .f32⟩ : BufTy).Contents (Elt F) → (⟨S4x256, .f32⟩ : BufTy).Contents (Elt F) → (⟨S4x256, .f32⟩ : BufTy).Contents (Elt F)),
    nullary main_cst_23 (constant S_ .f32 0x3F733333#32),
    unary main_cst_23 main_v88 (broadcastInDim S4x256 ![] bcast_S_S4x256 : (⟨S_, .f32⟩ : BufTy).Contents (Elt F) → (⟨S4x256, .f32⟩ : BufTy).Contents (Elt F)),
    binary main_v87 main_v88 main_v89 (Host.divf : (⟨S4x256, .f32⟩ : BufTy).Contents (Elt F) → (⟨S4x256, .f32⟩ : BufTy).Contents (Elt F) → (⟨S4x256, .f32⟩ : BufTy).Contents (Elt F)),
    nary ![main_v54, main_v64, main_v89] main_v90 (fun u => concatenate S12x256 0 [⟨S4x256, u 0⟩, ⟨S4x256, u 1⟩, ⟨S4x256, u 2⟩] concatenates_S4x256_S4x256_S4x256_S12x256_d0),
    nary ![main_v59, main_v74, main_v79] main_v91 (fun u => concatenate S12x256 0 [⟨S4x256, u 0⟩, ⟨S4x256, u 1⟩, ⟨S4x256, u 2⟩] concatenates_S4x256_S4x256_S4x256_S12x256_d0),
    nullary main_cst_24 (constant S_ .f32 0x3F733333#32),
    unary main_cst_24 main_v92 (broadcastInDim S12x256 ![] bcast_S_S12x256 : (⟨S_, .f32⟩ : BufTy).Contents (Elt F) → (⟨S12x256, .f32⟩ : BufTy).Contents (Elt F)),
    binary main_v92 main_v90 main_v93 (mulf : (⟨S12x256, .f32⟩ : BufTy).Contents (Elt F) → (⟨S12x256, .f32⟩ : BufTy).Contents (Elt F) → (⟨S12x256, .f32⟩ : BufTy).Contents (Elt F)),
    nullary main_cst_25 (constant S_ .f32 0x3F86BCA2#32),
    unary main_cst_25 main_v94 (broadcastInDim S12x256 ![] bcast_S_S12x256 : (⟨S_, .f32⟩ : BufTy).Contents (Elt F) → (⟨S12x256, .f32⟩ : BufTy).Contents (Elt F)),
    binary main_v94 main_v91 main_v95 (mulf : (⟨S12x256, .f32⟩ : BufTy).Contents (Elt F) → (⟨S12x256, .f32⟩ : BufTy).Contents (Elt F) → (⟨S12x256, .f32⟩ : BufTy).Contents (Elt F)),
    binary main_v93 main_v95 main_v96 (addf : (⟨S12x256, .f32⟩ : BufTy).Contents (Elt F) → (⟨S12x256, .f32⟩ : BufTy).Contents (Elt F) → (⟨S12x256, .f32⟩ : BufTy).Contents (Elt F)),
    nullary main_cst_26 (constant S_ .f32 0x3727C5AC#32),
    unary main_cst_26 main_v97 (broadcastInDim S256 ![] bcast_S_S256 : (⟨S_, .f32⟩ : BufTy).Contents (Elt F) → (⟨S256, .f32⟩ : BufTy).Contents (Elt F)),
    binary main_v12 main_v97 main_v98 (subf : (⟨S256, .f32⟩ : BufTy).Contents (Elt F) → (⟨S256, .f32⟩ : BufTy).Contents (Elt F) → (⟨S256, .f32⟩ : BufTy).Contents (Elt F)),
    unary main_v98 main_v99 (broadcastInDim S1x256 ![1] bcast_S256_S1x256_1 : (⟨S256, .f32⟩ : BufTy).Contents (Elt F) → (⟨S1x256, .f32⟩ : BufTy).Contents (Elt F)),
    unary main_v99 main_v100 (broadcastInDim S12x256 ![0, 1] bcast_S1x256_S12x256_0_1 : (⟨S1x256, .f32⟩ : BufTy).Contents (Elt F) → (⟨S12x256, .f32⟩ : BufTy).Contents (Elt F)),
    binary main_v90 main_v100 main_v101 (cmpf .oge : (⟨S12x256, .f32⟩ : BufTy).Contents (Elt F) → (⟨S12x256, .f32⟩ : BufTy).Contents (Elt F) → (⟨S12x256, .i1⟩ : BufTy).Contents (Elt F)),
    nullary main_cst_27 (constant S_ .f32 0x3727C5AC#32),
    unary main_cst_27 main_v102 (broadcastInDim S256 ![] bcast_S_S256 : (⟨S_, .f32⟩ : BufTy).Contents (Elt F) → (⟨S256, .f32⟩ : BufTy).Contents (Elt F)),
    binary main_v17 main_v102 main_v103 (addf : (⟨S256, .f32⟩ : BufTy).Contents (Elt F) → (⟨S256, .f32⟩ : BufTy).Contents (Elt F) → (⟨S256, .f32⟩ : BufTy).Contents (Elt F)),
    unary main_v103 main_v104 (broadcastInDim S1x256 ![1] bcast_S256_S1x256_1 : (⟨S256, .f32⟩ : BufTy).Contents (Elt F) → (⟨S1x256, .f32⟩ : BufTy).Contents (Elt F)),
    unary main_v104 main_v105 (broadcastInDim S12x256 ![0, 1] bcast_S1x256_S12x256_0_1 : (⟨S1x256, .f32⟩ : BufTy).Contents (Elt F) → (⟨S12x256, .f32⟩ : BufTy).Contents (Elt F)),
    binary main_v90 main_v105 main_v106 (cmpf .ole : (⟨S12x256, .f32⟩ : BufTy).Contents (Elt F) → (⟨S12x256, .f32⟩ : BufTy).Contents (Elt F) → (⟨S12x256, .i1⟩ : BufTy).Contents (Elt F)),
    binary main_v101 main_v106 main_v107 (andi : (⟨S12x256, .i1⟩ : BufTy).Contents (Elt F) → (⟨S12x256, .i1⟩ : BufTy).Contents (Elt F) → (⟨S12x256, .i1⟩ : BufTy).Contents (Elt F)),
    nullary main_cst_28 (constant S_ .f32 0x3727C5AC#32),
    unary main_cst_28 main_v108 (broadcastInDim S256 ![] bcast_S_S256 : (⟨S_, .f32⟩ : BufTy).Contents (Elt F) → (⟨S256, .f32⟩ : BufTy).Contents (Elt F)),
    binary main_v31 main_v108 main_v109 (subf : (⟨S256, .f32⟩ : BufTy).Contents (Elt F) → (⟨S256, .f32⟩ : BufTy).Contents (Elt F) → (⟨S256, .f32⟩ : BufTy).Contents (Elt F)),
    unary main_v109 main_v110 (broadcastInDim S1x256 ![1] bcast_S256_S1x256_1 : (⟨S256, .f32⟩ : BufTy).Contents (Elt F) → (⟨S1x256, .f32⟩ : BufTy).Contents (Elt F)),
    unary main_v110 main_v111 (broadcastInDim S12x256 ![0, 1] bcast_S1x256_S12x256_0_1 : (⟨S1x256, .f32⟩ : BufTy).Contents (Elt F) → (⟨S12x256, .f32⟩ : BufTy).Contents (Elt F)),
    binary main_v91 main_v111 main_v112 (cmpf .oge : (⟨S12x256, .f32⟩ : BufTy).Contents (Elt F) → (⟨S12x256, .f32⟩ : BufTy).Contents (Elt F) → (⟨S12x256, .i1⟩ : BufTy).Contents (Elt F)),
    binary main_v107 main_v112 main_v113 (andi : (⟨S12x256, .i1⟩ : BufTy).Contents (Elt F) → (⟨S12x256, .i1⟩ : BufTy).Contents (Elt F) → (⟨S12x256, .i1⟩ : BufTy).Contents (Elt F)),
    nullary main_cst_29 (constant S_ .f32 0x3727C5AC#32),
    unary main_cst_29 main_v114 (broadcastInDim S256 ![] bcast_S_S256 : (⟨S_, .f32⟩ : BufTy).Contents (Elt F) → (⟨S256, .f32⟩ : BufTy).Contents (Elt F)),
    binary main_v32 main_v114 main_v115 (addf : (⟨S256, .f32⟩ : BufTy).Contents (Elt F) → (⟨S256, .f32⟩ : BufTy).Contents (Elt F) → (⟨S256, .f32⟩ : BufTy).Contents (Elt F)),
    unary main_v115 main_v116 (broadcastInDim S1x256 ![1] bcast_S256_S1x256_1 : (⟨S256, .f32⟩ : BufTy).Contents (Elt F) → (⟨S1x256, .f32⟩ : BufTy).Contents (Elt F)),
    unary main_v116 main_v117 (broadcastInDim S12x256 ![0, 1] bcast_S1x256_S12x256_0_1 : (⟨S1x256, .f32⟩ : BufTy).Contents (Elt F) → (⟨S12x256, .f32⟩ : BufTy).Contents (Elt F)),
    binary main_v91 main_v117 main_v118 (cmpf .ole : (⟨S12x256, .f32⟩ : BufTy).Contents (Elt F) → (⟨S12x256, .f32⟩ : BufTy).Contents (Elt F) → (⟨S12x256, .i1⟩ : BufTy).Contents (Elt F)),
    binary main_v113 main_v118 main_v119 (andi : (⟨S12x256, .i1⟩ : BufTy).Contents (Elt F) → (⟨S12x256, .i1⟩ : BufTy).Contents (Elt F) → (⟨S12x256, .i1⟩ : BufTy).Contents (Elt F)),
    nullary main_cst_30 (constant S_ .f32 0x3727C5AC#32),
    unary main_cst_30 main_v120 (broadcastInDim S256 ![] bcast_S_S256 : (⟨S_, .f32⟩ : BufTy).Contents (Elt F) → (⟨S256, .f32⟩ : BufTy).Contents (Elt F)),
    binary main_v46 main_v120 main_v121 (subf : (⟨S256, .f32⟩ : BufTy).Contents (Elt F) → (⟨S256, .f32⟩ : BufTy).Contents (Elt F) → (⟨S256, .f32⟩ : BufTy).Contents (Elt F)),
    unary main_v121 main_v122 (broadcastInDim S1x256 ![1] bcast_S256_S1x256_1 : (⟨S256, .f32⟩ : BufTy).Contents (Elt F) → (⟨S1x256, .f32⟩ : BufTy).Contents (Elt F)),
    unary main_v122 main_v123 (broadcastInDim S12x256 ![0, 1] bcast_S1x256_S12x256_0_1 : (⟨S1x256, .f32⟩ : BufTy).Contents (Elt F) → (⟨S12x256, .f32⟩ : BufTy).Contents (Elt F)),
    binary main_v96 main_v123 main_v124 (cmpf .oge : (⟨S12x256, .f32⟩ : BufTy).Contents (Elt F) → (⟨S12x256, .f32⟩ : BufTy).Contents (Elt F) → (⟨S12x256, .i1⟩ : BufTy).Contents (Elt F)),
    binary main_v119 main_v124 main_v125 (andi : (⟨S12x256, .i1⟩ : BufTy).Contents (Elt F) → (⟨S12x256, .i1⟩ : BufTy).Contents (Elt F) → (⟨S12x256, .i1⟩ : BufTy).Contents (Elt F)),
    nullary main_cst_31 (constant S_ .f32 0x3727C5AC#32),
    unary main_cst_31 main_v126 (broadcastInDim S256 ![] bcast_S_S256 : (⟨S_, .f32⟩ : BufTy).Contents (Elt F) → (⟨S256, .f32⟩ : BufTy).Contents (Elt F)),
    binary main_v49 main_v126 main_v127 (addf : (⟨S256, .f32⟩ : BufTy).Contents (Elt F) → (⟨S256, .f32⟩ : BufTy).Contents (Elt F) → (⟨S256, .f32⟩ : BufTy).Contents (Elt F)),
    unary main_v127 main_v128 (broadcastInDim S1x256 ![1] bcast_S256_S1x256_1 : (⟨S256, .f32⟩ : BufTy).Contents (Elt F) → (⟨S1x256, .f32⟩ : BufTy).Contents (Elt F)),
    unary main_v128 main_v129 (broadcastInDim S12x256 ![0, 1] bcast_S1x256_S12x256_0_1 : (⟨S1x256, .f32⟩ : BufTy).Contents (Elt F) → (⟨S12x256, .f32⟩ : BufTy).Contents (Elt F)),
    binary main_v96 main_v129 main_v130 (cmpf .ole : (⟨S12x256, .f32⟩ : BufTy).Contents (Elt F) → (⟨S12x256, .f32⟩ : BufTy).Contents (Elt F) → (⟨S12x256, .i1⟩ : BufTy).Contents (Elt F)),
    binary main_v125 main_v130 main_v131 (andi : (⟨S12x256, .i1⟩ : BufTy).Contents (Elt F) → (⟨S12x256, .i1⟩ : BufTy).Contents (Elt F) → (⟨S12x256, .i1⟩ : BufTy).Contents (Elt F)),
    binary main_v90 main_v91 main_v132 (addf : (⟨S12x256, .f32⟩ : BufTy).Contents (Elt F) → (⟨S12x256, .f32⟩ : BufTy).Contents (Elt F) → (⟨S12x256, .f32⟩ : BufTy).Contents (Elt F)),
    nullary main_cst_32 (constant S_ .f32 0xFF800000#32),
    TRef.unary (TRef.of (T := ⟨S_, .f32⟩) main_cst_32) (TRef.of (T := ⟨S_, .f32⟩) main_call4_v0) id,
    TRef.unary (TRef.of (T := ⟨S_, .f32⟩) main_call4_v0) (TRef.of (T := ⟨S12x256, .f32⟩) main_call4_v1) (broadcastInDim S12x256 ![] bcast_S_S12x256),
    TRef.ternary (TRef.of (T := ⟨S12x256, .i1⟩) main_v131) (TRef.of (T := ⟨S12x256, .f32⟩) main_v132) (TRef.of (T := ⟨S12x256, .f32⟩) main_call4_v1) (TRef.of (T := ⟨S12x256, .f32⟩) main_v133) select,
    nullary main_cst_33 (constant S_ .f32 0xFF800000#32),
    binary main_v133 main_cst_33 main_v134 ((fun x v => Host.reduce FloatOps.maximumf x v reducesTo_S12x256_S256_d0 h_S_) : (⟨S12x256, .f32⟩ : BufTy).Contents (Elt F) → (⟨S_, .f32⟩ : BufTy).Contents (Elt F) → (⟨S256, .f32⟩ : BufTy).Contents (Elt F)),
    nullary main_cst_34 (constant S_ .f32 0x7F800000#32),
    TRef.unary (TRef.of (T := ⟨S_, .f32⟩) main_cst_34) (TRef.of (T := ⟨S_, .f32⟩) main_call5_v0) id,
    TRef.unary (TRef.of (T := ⟨S_, .f32⟩) main_call5_v0) (TRef.of (T := ⟨S12x256, .f32⟩) main_call5_v1) (broadcastInDim S12x256 ![] bcast_S_S12x256),
    TRef.ternary (TRef.of (T := ⟨S12x256, .i1⟩) main_v131) (TRef.of (T := ⟨S12x256, .f32⟩) main_v132) (TRef.of (T := ⟨S12x256, .f32⟩) main_call5_v1) (TRef.of (T := ⟨S12x256, .f32⟩) main_v135) select,
    nullary main_cst_35 (constant S_ .f32 0x7F800000#32),
    binary main_v135 main_cst_35 main_v136 ((fun x v => Host.reduce FloatOps.minimumf x v reducesTo_S12x256_S256_d0 h_S_) : (⟨S12x256, .f32⟩ : BufTy).Contents (Elt F) → (⟨S_, .f32⟩ : BufTy).Contents (Elt F) → (⟨S256, .f32⟩ : BufTy).Contents (Elt F)),
    unary main_v136 main_v137 (broadcastInDim S1x256 ![1] bcast_S256_S1x256_1 : (⟨S256, .f32⟩ : BufTy).Contents (Elt F) → (⟨S1x256, .f32⟩ : BufTy).Contents (Elt F)),
    unary main_v134 main_v138 (broadcastInDim S1x256 ![1] bcast_S256_S1x256_1 : (⟨S256, .f32⟩ : BufTy).Contents (Elt F) → (⟨S1x256, .f32⟩ : BufTy).Contents (Elt F)),
    TRef.unary (TRef.of (T := ⟨S1x256, .f32⟩) main_v137) (TRef.of (T := ⟨S8192x256, .f32⟩) main_call6_v0) (broadcastInDim S8192x256 ![0, 1] bcast_S1x256_S8192x256_0_1),
    TRef.binary (TRef.of (T := ⟨S8192x256, .f32⟩) main_call6_v0) (TRef.of (T := ⟨S8192x256, .f32⟩) main_arg0) (TRef.of (T := ⟨S8192x256, .f32⟩) main_call6_v1) maximumf,
    TRef.unary (TRef.of (T := ⟨S1x256, .f32⟩) main_v138) (TRef.of (T := ⟨S8192x256, .f32⟩) main_call6_v2) (broadcastInDim S8192x256 ![0, 1] bcast_S1x256_S8192x256_0_1),
    TRef.binary (TRef.of (T := ⟨S8192x256, .f32⟩) main_call6_v2) (TRef.of (T := ⟨S8192x256, .f32⟩) main_call6_v1) (TRef.of (T := ⟨S8192x256, .f32⟩) main_v139) minimumf ]

/-- @main is these operations run one after the other. -/
theorem main_eq (c : Dev nD) : main (F := F) c = seq ops := by sl_kernel_rfl

theorem scopedRefs_eq : (Finset.univ.filter fun b : Ref sig .tc => b.isScoped) = ∅ := by decide
theorem scopedSems_eq : (Finset.univ.filter fun sm : SemLoc sig => sm.isScoped .tc) = ∅ := by decide

set_option maxHeartbeats 4000000 in
/-- Every operation touches TensorCore buffers only. -/
theorem ops_sub : (ops : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxHeartbeats 4000000 in
/-- No operation allocates. -/
theorem ops_fresh : (ops : List (HloOp τ sig (Elt F))).Forall fun op => op.fresh = ∅ := by
  simp only [List.Forall]; repeat' constructor

/-- Every execution terminates with every buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ op h => (List.forall_iff_forall_mem.mp ops_fresh) op h)

/-- No operation writes the big array, -/
theorem kept_arg0 (M : Valuation τ sig (Elt F)) :
    after ops M (Proc.devRef .tc main_arg0) = M (Proc.devRef .tc main_arg0) := by sl_kernel_rfl
/-- nor the observation row. -/
theorem kept_arg1 (M : Valuation τ sig (Elt F)) :
    after ops M (Proc.devRef .tc main_arg1) = M (Proc.devRef .tc main_arg1) := by sl_kernel_rfl

/-! ## The bounds -/

/-- The lower-bound vector (the minimum over the feasible candidates) the operations compute from contents `M`. -/
def lo (M : Valuation τ sig (Elt F)) : (⟨S256, .f32⟩ : BufTy).Contents (Elt F) :=
  after ops M (Proc.devRef .tc main_v136)
/-- The upper-bound vector (the maximum over the feasible candidates) the operations compute from contents `M`. -/
def hi (M : Valuation τ sig (Elt F)) : (⟨S256, .f32⟩ : BufTy).Contents (Elt F) :=
  after ops M (Proc.devRef .tc main_v134)

/-- Contents `M` with the observation row replaced by `x`: the bounds read nothing else of the launch contents, so
    another program's bounds of the same observation row are `lo (withObs M x)`, `hi (withObs M x)` for any `M`. -/
def withObs (M : Valuation τ sig (Elt F)) (x : (⟨S1x1024, .f32⟩ : BufTy).Contents (Elt F)) : Valuation τ sig (Elt F) :=
  fun b => if h : b = Proc.devRef .tc main_arg1
    then cast (congrArg (fun d : DevRef τ sig => d.ty.Contents (Elt F)) h.symm) x
    else M b

/-- Replacing the observation row by itself changes nothing. -/
theorem withObs_self (M : Valuation τ sig (Elt F)) : withObs M (M (Proc.devRef .tc main_arg1)) = M := by
  funext b
  unfold withObs
  by_cases h : b = Proc.devRef .tc main_arg1
  · subst h; rw [dif_pos rfl]; rfl
  · rw [dif_neg h]

/-- A vector laid out as one row and repeated down the 8192 rows. -/
def spread (v : (⟨S256, .f32⟩ : BufTy).Contents (Elt F)) : (⟨S8192x256, .f32⟩ : BufTy).Contents (Elt F) :=
  broadcastInDim S8192x256 ![0, 1] bcast_S1x256_S8192x256_0_1 (broadcastInDim S1x256 ![1] bcast_S256_S1x256_1 v)

/-- The fold at the result buffer: the big array clipped between the two spread bound vectors. -/
theorem result_eq (M : Valuation τ sig (Elt F)) :
    after ops M (Proc.devRef .tc main_v139)
      = minimumf (spread (hi M)) (maximumf (spread (lo M)) (M (Proc.devRef .tc main_arg0))) := by
  sl_kernel_rfl

/-- Column `q` of a vector of 256 entries, as an index. -/
def col (q : Fin 256) : S256.Idx := fun a => match a with
  | ⟨0, _⟩ => ⟨q.val, q.isLt⟩

/-- A spread vector at (r, q) is the vector at q. -/
theorem spread_apply (v : (⟨S256, .f32⟩ : BufTy).Contents (Elt F)) (i : S8192x256.Idx) : spread v i = v (col (i 1)) := by
  unfold spread
  let k : S1x256.Idx := fun a => match a with
    | ⟨0, _⟩ => ⟨0, Nat.one_pos⟩
    | ⟨1, _⟩ => ⟨(i 1).val, (i 1).isLt⟩
  refine (broadcastInDim_apply _ bcast_S1x256_S8192x256_0_1 _ i k (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])).trans ?_
  exact broadcastInDim_apply _ bcast_S256_S1x256_1 v k (col (i 1)) (fun a => match a with
    | ⟨0, _⟩ => by show (i 1).val = if (256 : Nat) = 1 then 0 else (i 1).val; rw [if_neg (by decide)])

/-- Entry (r, q) clipped between two bound vectors at column q. -/
def clipBetween (x0 : (⟨S8192x256, .f32⟩ : BufTy).Contents (Elt F)) (l h : (⟨S256, .f32⟩ : BufTy).Contents (Elt F)) :
    (⟨S8192x256, .f32⟩ : BufTy).Contents (Elt F) :=
  fun i => FloatOps.minimumf (h (col (i 1))) (FloatOps.maximumf (l (col (i 1))) (x0 i))

theorem clip_spread (x0 : (⟨S8192x256, .f32⟩ : BufTy).Contents (Elt F)) (l h : (⟨S256, .f32⟩ : BufTy).Contents (Elt F)) :
    minimumf (spread h) (maximumf (spread l) x0) = clipBetween x0 l h := by
  funext i
  show FloatOps.minimumf (spread h i) (FloatOps.maximumf (spread l i) (x0 i)) = _
  rw [spread_apply, spread_apply]
  rfl

/-- The run, read: the result is the big array clipped between the bounds of the observation row; the arguments are
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v139)
          = clipBetween (m ((c.tc : Thread nD τ).loc main_arg0)) (lo (launchContents m c)) (hi (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c main_v139).trans (result_eq (launchContents m c))).trans (clip_spread _ _ _),
      (h c main_arg0).trans (kept_arg0 (launchContents m c)), (h c main_arg1).trans (kept_arg1 (launchContents m c))⟩)
    (run_all m ρ)

end Cert.ReferenceIdeal.RefValue

end
-- ==== Proof.Bounds.lean ====
/-
  The two bound rows the launch finds are the reference's two bound vectors, laid out as rows.

  Both programs compute the bounds from the observation row by the same host operations, one after the other; the
  kernel's program then lays each vector out as one row by a reshape. Folding the kernel's host operations at the two
  row buffers, and the reference's at its two vector buffers, gives the same composed term of the observation row: the
  two folds are equal by unfolding, operation by operation. Read at
  (0, q) a reshaped vector is the vector at q; so the kernel's clip between the rows it finds is the reference's clip
  between its vectors.
-/
import proofs.«177407_j28484223107561_2_alg».proof.Proof.LaunchIdeal
import proofs.«177407_j28484223107561_2_alg».proof.Proof.ValueIdeal
import proofs.«177407_j28484223107561_2_alg».proof.Proof.RefRun
import Idealize.ShloMosaic.Lib.Pipeline.Value
import Idealize.ShloMosaic.Lib.StableHlo.Run
import Idealize.ShloMosaic.Lib.Tactic

set_option maxRecDepth 16384

noncomputable section

namespace Cert.KernelIdeal.Clip

open Cert.KernelIdeal Cert.KernelIdeal.Gen Idealize.ShloMosaic Idealize.ShloMosaic.TcCoe Idealize.SL.Sem Idealize.ShloMosaic.StableHlo
open Idealize.ShloMosaic.Tactic
open Cert.ReferenceIdeal.RefValue (lo hi col clipBetween withObs)

variable {F : FTy → Type} [FloatOps F]
variable (m : (ℓ : Loc nD τ sig) → Buf (Elt F) ℓ)

/-- The lower-bound row the launch finds: the reference's lower-bound vector of the same observation row, as one row.
    (`M`: any contents of the reference's other buffers; the vector reads the observation row only.) -/
theorem found_lo (c : Dev nD) (M : Valuation Cert.ReferenceIdeal.τ Cert.ReferenceIdeal.sig (Elt F)) :
    (V m c main_v137 : S1x256.Idx → Elt F .f32)
      = fun k => shapeCast S1x256 (lo (withObs M (m ((c : Thread nD τ).loc main_arg1)))) shapeCasts_S256_S1x256 k := by
  sl_kernel_rfl

/-- The upper-bound row the launch finds: the reference's upper-bound vector, as one row. -/
theorem found_hi (c : Dev nD) (M : Valuation Cert.ReferenceIdeal.τ Cert.ReferenceIdeal.sig (Elt F)) :
    (V m c main_v138 : S1x256.Idx → Elt F .f32)
      = fun k => shapeCast S1x256 (hi (withObs M (m ((c : Thread nD τ).loc main_arg1)))) shapeCasts_S256_S1x256 k := by
  sl_kernel_rfl

/-- A vector of 256 reshaped to one row, read at (0, q), is the vector at q. -/
theorem row_apply (y : S256.Idx → Elt F .f32) (q : Fin 256) :
    shapeCast S1x256 y shapeCasts_S256_S1x256 (atRow0 q) = y (col q) :=
  shapeCast_apply y shapeCasts_S256_S1x256 (atRow0 q) (col q)
    (by rw [Shape.rowMajor_val_one, Shape.rowMajor_val_two]; show q.val = 0 * 256 + q.val; omega)

theorem lo_apply (c : Dev nD) (M : Valuation Cert.ReferenceIdeal.τ Cert.ReferenceIdeal.sig (Elt F)) (q : Fin 256) :
    V m c main_v137 (atRow0 q) = lo (withObs M (m ((c : Thread nD τ).loc main_arg1))) (col q) := by
  rw [found_lo m c M]; exact row_apply _ q

theorem hi_apply (c : Dev nD) (M : Valuation Cert.ReferenceIdeal.τ Cert.ReferenceIdeal.sig (Elt F)) (q : Fin 256) :
    V m c main_v138 (atRow0 q) = hi (withObs M (m ((c : Thread nD τ).loc main_arg1))) (col q) := by
  rw [found_hi m c M]; exact row_apply _ q

/-- The kernel's clip between the rows its launch finds is the reference's clip between its bound vectors. -/
theorem clip_eq_reference (c : Dev nD) (M : Valuation Cert.ReferenceIdeal.τ Cert.ReferenceIdeal.sig (Elt F)) (x0 : S8192x256.Idx → Elt F .f32) :
    clip x0 (V m c main_v137) (V m c main_v138)
      = clipBetween x0 (lo (withObs M (m ((c : Thread nD τ).loc main_arg1)))) (hi (withObs M (m ((c : Thread nD τ).loc main_arg1)))) := by
  funext i
  have hl := lo_apply m c M (i 1)
  have hh := hi_apply m c M (i 1)
  unfold clip clipBetween
  exact congrArg₂ FloatOps.minimumf hh (congrArg₂ FloatOps.maximumf hl rfl)

end Cert.KernelIdeal.Clip

end
-- ==== Proof.lean ====
/-
  A row-wise clip of a big array between two per-column bounds, as a tiled kernel, against the same clip done whole
  on the host.

  Both programs first compute, from the observation row alone and by the same sequence of small host operations, a
  lower and an upper bound per column (a minimum and a maximum over twelve candidate values, the infeasible ones
  masked to +inf and -inf). The kernel's program then lays the two vectors out as rows and launches a kernel over four
  bands of 2048 rows, each point storing  min (hi, max (lo, x))  over its band with the rows repeated down it; the
  reference repeats the rows down all 8192 rows and takes the same minimum of maximum in one operation.

  At the ideal instance the two results are the same function of the two argument arrays, entry by entry:
  at (r, q) both are  min (hi q, max (lo q, x (r, q)))  with the SAME lo and hi, because the two programs' host
  operations compose to the same term of the observation row. No arithmetic law is used, so the finiteness
  precondition is never opened. The three frames: each kernel program by its launch (Proof/LaunchWord.lean,
  Proof/LaunchIdeal.lean), the reference by its run (Proof/RefRun.lean). The idealization rewrote nothing, so
  `preserves` has no conjunct.
-/
import proofs.«177407_j28484223107561_2_alg».proof.Defs
import proofs.«177407_j28484223107561_2_alg».proof.Proof.Gen.Kernel
import proofs.«177407_j28484223107561_2_alg».proof.Proof.Gen.KernelIdeal
import proofs.«177407_j28484223107561_2_alg».proof.Proof.Gen.ReferenceIdeal
import proofs.«177407_j28484223107561_2_alg».proof.Proof.Gen.Pre_finite_inputs
import proofs.«177407_j28484223107561_2_alg».proof.Proof.LaunchWord
import proofs.«177407_j28484223107561_2_alg».proof.Proof.LaunchIdeal
import proofs.«177407_j28484223107561_2_alg».proof.Proof.ValueIdeal
import proofs.«177407_j28484223107561_2_alg».proof.Proof.RefRun
import proofs.«177407_j28484223107561_2_alg».proof.Proof.Bounds
import Idealize.ShloMosaic.Adequacy
import Idealize.ShloMosaic.Init

noncomputable section

namespace Cert.Proof

open Idealize.ShloMosaic Idealize.ShloMosaic.TcCoe Idealize.SL.Sem

/-- The word-level kernel program runs to the end and leaves its arguments alone. -/
theorem frame_word : Cert.frame_Kernel := fun m ρ _ => Cert.Kernel.Clip.frame m ρ

/-- So does the idealized one. -/
theorem frame_ideal : Cert.frame_KernelIdeal := fun m ρ _ => Cert.KernelIdeal.Clip.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.RefValue.run (F := Ideal) m ρ)

/-- From memories agreeing on the two arguments both programs end with the result at the big array clipped between the
    bound vectors of the observation row: the kernel's clip between the rows its launch finds is that
    (`clip_eq_reference`), and the reference's run ends there by its own reading (its observation row is the kernel's, so
    replacing one by the other in its launch contents changes nothing). -/
theorem algebraic : Cert.algebraic_KernelIdeal_ReferenceIdeal := by
  intro m ρ m' ρ' _ hagree
  refine ⟨fun c => Cert.ReferenceIdeal.RefValue.clipBetween (F := Ideal)
      (m ((c.tc : Thread Cert.KernelIdeal.nD Cert.KernelIdeal.τ).loc Cert.KernelIdeal.main_arg0))
      (Cert.ReferenceIdeal.RefValue.lo (Cert.ReferenceIdeal.RefValue.withObs (StableHlo.launchContents m' c)
        (m ((c.tc : Thread Cert.KernelIdeal.nD Cert.KernelIdeal.τ).loc Cert.KernelIdeal.main_arg1))))
      (Cert.ReferenceIdeal.RefValue.hi (Cert.ReferenceIdeal.RefValue.withObs (StableHlo.launchContents m' c)
        (m ((c.tc : Thread Cert.KernelIdeal.nD Cert.KernelIdeal.τ).loc Cert.KernelIdeal.main_arg1)))), ?_, ?_⟩
  · exact (θ_run Cert.KernelIdeal.defs _ _).mono
      (fun r h c => ⟨(h c).1.trans (Cert.KernelIdeal.Clip.clip_eq_reference (F := Ideal) m c (StableHlo.launchContents m' c) _), (h c).2⟩)
      (Cert.KernelIdeal.Clip.run (F := Ideal) m ρ)
  · refine (θ_run Cert.ReferenceIdeal.defs _ _).mono (fun r h c => ⟨?_, (h c).2⟩)
      (Cert.ReferenceIdeal.RefValue.run (F := Ideal) m' ρ')
    have e : Cert.ReferenceIdeal.RefValue.withObs (StableHlo.launchContents m' c)
        (m ((c.tc : Thread Cert.KernelIdeal.nD Cert.KernelIdeal.τ).loc Cert.KernelIdeal.main_arg1)) = StableHlo.launchContents m' c := by
      rw [← (hagree c).2]; exact Cert.ReferenceIdeal.RefValue.withObs_self (StableHlo.launchContents m' c)
    rw [(h c).1]
    beta_reduce
    rw [e, (hagree c).1]

theorem claim : Cert.Claim :=
  ⟨Cert.Kernel.Gen.facts, Cert.KernelIdeal.Gen.facts, Cert.ReferenceIdeal.Gen.facts, Cert.Pre_finite_inputs.Gen.facts,
    frame_word, frame_ideal, frame_reference, trivial, algebraic⟩

end Cert.Proof

end
